-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S1x128 : Shape := ⟨2, ![1, 128]⟩
abbrev S100000x1 : Shape := ⟨2, ![100000, 1]⟩
abbrev S4000x128 : Shape := ⟨2, ![4000, 128]⟩
abbrev S4000x1 : Shape := ⟨2, ![4000, 1]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S4000x64 : Shape := ⟨2, ![4000, 64]⟩

abbrev nBuf : Space → Nat
  | .hbm => 105
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x1, .f32⟩
  | .hbm, ⟨62, _⟩ => ⟨S100000x128, .f32⟩
  | .hbm, ⟨63, _⟩ => ⟨S100000x128, .bf16⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .bf16⟩
  | .hbm, ⟨73, _⟩ => ⟨S1600000x128, .f32⟩
  | .hbm, ⟨74, _⟩ => ⟨S1600000x1, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S100000x1, .f32⟩
  | .hbm, ⟨83, _⟩ => ⟨S100000x128, .f32⟩
  | .hbm, ⟨84, _⟩ => ⟨S100000x64, .bf16⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .bf16⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S100000x1, .f32⟩
  | .hbm, ⟨104, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S4000x128, .f32⟩
  | .local _ .vmem, ⟨6, _⟩ => ⟨S4000x128, .f32⟩
  | .local _ .vmem, ⟨7, _⟩ => ⟨S4000x128, .bf16⟩
  | .local _ .vmem, ⟨8, _⟩ => ⟨S4000x128, .bf16⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .bf16⟩
  | .local _ .vmem, ⟨18, _⟩ => ⟨S10000x128, .bf16⟩
  | .local _ .vmem, ⟨19, _⟩ => ⟨S4000x128, .f32⟩
  | .local _ .vmem, ⟨20, _⟩ => ⟨S4000x128, .f32⟩
  | .local _ .vmem, ⟨21, _⟩ => ⟨S4000x128, .bf16⟩
  | .local _ .vmem, ⟨22, _⟩ => ⟨S4000x128, .bf16⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S10000x128, .f32⟩
  | .local _ .vmem, ⟨29, _⟩ => ⟨S10000x128, .f32⟩
  | .local _ .vmem, ⟨30, _⟩ => ⟨S128x64, .f32⟩
  | .local _ .vmem, ⟨31, _⟩ => ⟨S10000x64, .bf16⟩
  | .local _ .vmem, ⟨32, _⟩ => ⟨S10000x64, .bf16⟩
  | .local _ .vmem, ⟨33, _⟩ => ⟨S4000x64, .f32⟩
  | .local _ .vmem, ⟨34, _⟩ => ⟨S4000x64, .f32⟩
  | .local _ .vmem, ⟨35, _⟩ => ⟨S4000x64, .bf16⟩
  | .local _ .vmem, ⟨36, _⟩ => ⟨S4000x64, .bf16⟩
  | .local _ .vmem, ⟨37, _⟩ => ⟨S4000x1, .f32⟩
  | .local _ .vmem, ⟨38, _⟩ => ⟨S4000x1, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_10 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .bf16 = 32 ∨ (Rect.block (s := S100000x128) S10000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .bf16 = 32 ∨ (Rect.block (s := S100000x64) S10000x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .bf16 = 32 ∨ (Rect.block (s := S100000x64) S4000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x64, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S1600000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x64, .f32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_18 : Ref sig .tc := ⟨.hbm, 134, rfl⟩
abbrev main_v101 : Ref sig .tc := ⟨.hbm, 135, rfl⟩
abbrev main_v102 : Ref sig .tc := ⟨.hbm, 136, rfl⟩
abbrev main_c_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_20 : Ref sig .tc := ⟨.hbm, 144, rfl⟩
abbrev main_v109 : Ref sig .tc := ⟨.hbm, 145, rfl⟩
abbrev main_v110 : Ref sig .tc := ⟨.hbm, 146, rfl⟩
abbrev main_c_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_22 : Ref sig .tc := ⟨.hbm, 155, rfl⟩
abbrev main_v118 : Ref sig .tc := ⟨.hbm, 156, rfl⟩
abbrev main_v119 : Ref sig .tc := ⟨.hbm, 157, rfl⟩
abbrev main_c_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, with its result named.

  The six regions and the host operations between them run as one chain of segments, each entered from the buffer
  contents the previous one leaves. Every weakly fair execution terminates without a fault; the result buffer ends at
  the last boundary's contents of it, and each argument array ends as it was launched.
-/
import proofs.«151050_j51049981280880_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer at the last boundary's contents, the arguments unchanged. -/
theorem run : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.ResultRun

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«151050_j51049981280880_2_alg».proof.Proof.LibMatmulRows
import proofs.«151050_j51049981280880_2_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.Region0.lean ====
/-
  The first projection, region by region: ten tiles of 10000 rows of the node features, each multiplied by the whole
  first weight matrix into a zero accumulator and rounded to bf16 (the identity on the extended reals). Each tile's
  product is that tile of the whole product, and the ten tiles cover the output array, so after the region the output
  array is the whole product of the two input arrays.
-/
import proofs.«151050_j51049981280880_2_alg».proof.Proof.Gen.KernelIdeal.Frame
import proofs.«151050_j51049981280880_2_alg».proof.Proof.LibTileRows

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)
open Cert.LibTileRows

variable (V : (c : Dev nD) → (b : Ref sig .tc) → Buf (Elt Ideal) ((c : Thread nD τ).loc b))

theorem hz : (![0, 0] : Fin 2 → Nat) = fun _ => 0 := funext fun a => by fin_cases a <;> rfl

/-! ## The dimension numbers: axis 1 of the left operand against axis 0 of the right, no batch axis -/

theorem lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## One grid point: the tile's product is the tile of the whole product -/

/-- The body's stored value at an index of the tile, when the left block holds rows o, o + 1, … of X and the right
    block is W: the whole product at the index o rows further down (rounding to bf16 is the identity here). -/
theorem pay_tile (x0 : Vec Ideal S10000x128 .f32) (x1 : Vec Ideal S128x128 .f32) (X : S100000x128.Idx → EReal) (W : S128x128.Idx → EReal) (o : Nat)
    (hX : ∀ (x : S10000x128.Idx) (k : S100000x128.Idx), (k 0).val = o + (x 0).val → (k 1).val = (x 1).val → x0 x = X k)
    (hW : ∀ x, x1 x = W x) (y : S10000x128.Idx) (i : S100000x128.Idx)
    (hi0 : (i 0).val = o + (y 0).val) (hi1 : (i 1).val = (y 1).val) :
    k0_pay1 x0 x1 y = rowsProd X W i := by
  unfold k0_pay1
  exact tile_rowsProd dot_S10000x128_S128x128_S10000x128_1_0_0_1_n_n rfl rfl lhs_0 lhs_1 rhs_0 rhs_1 none
    (truncf .bf16 x0 bitsLt_bf16_f32) (truncf .bf16 x1 bitsLt_bf16_f32) X W o hX hW y i hi0 hi1

/-! ## The index maps over the grid, and the blocks read where the maps say -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t holds rows 10000·t, 10000·t + 1, … of its array. -/
theorem blk_left (c : Dev nD) (t : Fin cfg0.N) (x : S10000x128.Idx) (k : S100000x128.Idx)
    (h0 : (k 0).val = t.val * 10000 + (x 0).val) (h1 : (k 1).val = (x 1).val) :
    iblk0 V c 0 t x = V c main_arg0 k := by
  obtain ⟨e0, e1, -, -, -, -⟩ := idx_facts t
  show V c main_arg0 (((cfg0.win 0).blk t).view.emb x) = V c main_arg0 k
  refine congrArg _ (funext fun a => Fin.ext ?_)
  match a with
  | ⟨0, _⟩ => show win0_0.index t (0 : Fin 2) * 10000 + 1 * (x 0).val = (k 0).val; omega
  | ⟨1, _⟩ => show win0_0.index t (1 : Fin 2) * 128 + 1 * (x 1).val = (k 1).val; omega

/-- The right window's block at every point is its whole array. -/
theorem blk_right (c : Dev nD) (t : Fin cfg0.N) (x : S128x128.Idx) : iblk0 V c 1 t x = V c main_arg3 x := by
  obtain ⟨-, -, e2, e3, -, -⟩ := idx_facts t
  show V c main_arg3 (((cfg0.win 1).blk t).view.emb x) = V c main_arg3 x
  refine congrArg _ (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- What point t writes back is block t of the whole product of the two arrays as the region finds them. -/
theorem flushed_eq (c : Dev nD) (t : Fin cfg0.N) :
    (dat0 V c).flushed 2 t = ((cfg0.win 2).blk t).view.read (Elt Ideal) (rowsProd (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext y
  show k0_pay1 (iblk0 V c 0 t) (iblk0 V c 1 t) y = rowsProd (V c main_arg0) (V c main_arg3) (((cfg0.win 2).blk t).view.emb y)
  refine pay_tile (iblk0 V c 0 t) (iblk0 V c 1 t) (V c main_arg0) (V c main_arg3) (t.val * 10000)
    (fun x k h0 h1 => blk_left V c t x k h0 h1) (fun x => blk_right V c t x) y _ ?_ ?_
  · show win0_2.index t (0 : Fin 2) * 10000 + 1 * (y 0).val = t.val * 10000 + (y 0).val; omega
  · show win0_2.index t (1 : Fin 2) * 128 + 1 * (y 1).val = (y 1).val; omega

/-! ## The blocks cover the output array -/

theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Row r lies in the block of point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 10000 < cfg0.N := by
    show (i 0).val / 10000 < 10
    omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    omega

/-- The output array after the region: the whole product of the two input arrays as the region finds them. -/
theorem final (c : Dev nD) : (dat0 V c).arrAt 2 cfg0.N = rowsProd (V c main_arg0) (V c main_arg3) :=
  (dat0 V c).arrAt_eq_of_cover 2 _ (fun t _ => flushed_eq V c t) cover

end Cert.KernelIdeal.Region0

end
-- ==== Proof.LibNodeCombine.lean ====
/-
  The node-wise combine of a graph-convolution layer, as one whole-array function.

  `combine A P D B` at (r, c) is (A(r, c) + D(r, 0) · P(r, c)) + B(0, c): the aggregated messages A, the projected
  features P scaled row by row by the one-column array D, and the bias row B added to every row. `combineRelu` is its
  maximum with the float word zero. A row of the result depends on that row of A, P and D only, so a tile of rows of the
  three, combined with the whole of B, is the tile of the whole combine. On the other side the whole combine is the
  host's spelling of it: the column and the row broadcast to the full shape, a product and two sums.
-/
import Idealize.ShloMosaic.Lib.Pipeline.Value
import Idealize.ShloMosaic.Lib.ValueIdx
import Idealize.ShloMosaic.Lib.ValueLayout
import Idealize.ShloMosaic.PureOps.Ideal.Laws

noncomputable section

namespace Cert.NodeCombine

open Idealize.ShloMosaic Idealize.ShloMosaic.ValueIdx

/-- An [a, 1] array broadcast to [a, b] reads, at (p, q), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- (A + D · P) + B, the column D scaling each row of P and the row B added to every row. -/
def combine {M N : Nat} (A P : (⟨2, ![M, N]⟩ : Shape).Idx → EReal) (D : (⟨2, ![M, 1]⟩ : Shape).Idx → EReal)
    (B : (⟨2, ![1, N]⟩ : Shape).Idx → EReal) : (⟨2, ![M, N]⟩ : Shape).Idx → EReal :=
  fun i => (A i + D (ix2 (i 0) (0 : Fin 1)) * P i) + B (ix2 (0 : Fin 1) (i 1))

/-- The same followed by the maximum with the float word zero. -/
def combineRelu {M N : Nat} (A P : (⟨2, ![M, N]⟩ : Shape).Idx → EReal) (D : (⟨2, ![M, 1]⟩ : Shape).Idx → EReal)
    (B : (⟨2, ![1, N]⟩ : Shape).Idx → EReal) : (⟨2, ![M, N]⟩ : Shape).Idx → EReal :=
  fun i => max (combine A P D B i) (Ideal.ofBits .f32 0x00000000#32)

/-- A tile of rows: when the tile arrays a, p, d hold rows o, o + 1, … of A, P, D and b is B, the tile's combine at y is
    the whole combine at the index o rows further down. -/
theorem tile_combine {Mb M N : Nat}
    (a p : (⟨2, ![Mb, N]⟩ : Shape).Idx → EReal) (d : (⟨2, ![Mb, 1]⟩ : Shape).Idx → EReal) (b : (⟨2, ![1, N]⟩ : Shape).Idx → EReal)
    (hd : (⟨2, ![Mb, 1]⟩ : Shape).Broadcasts ⟨2, ![Mb, N]⟩) (hb : (⟨2, ![1, N]⟩ : Shape).Broadcasts ⟨2, ![Mb, N]⟩)
    (A P : (⟨2, ![M, N]⟩ : Shape).Idx → EReal) (D : (⟨2, ![M, 1]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hP : ∀ (x : (⟨2, ![Mb, N]⟩ : Shape).Idx) (k : (⟨2, ![M, N]⟩ : Shape).Idx),
      (k 0).val = o + (x 0).val → (k 1).val = (x 1).val → p x = P k)
    (hD : ∀ (x : (⟨2, ![Mb, 1]⟩ : Shape).Idx) (k : (⟨2, ![M, 1]⟩ : Shape).Idx), (k 0).val = o + (x 0).val → d x = D k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    (a y + broadcastTo ⟨2, ![Mb, N]⟩ d hd y * p y) + broadcastTo ⟨2, ![Mb, N]⟩ b hb y = combine A P D B i := by
  obtain ⟨r, q, rfl⟩ : ∃ (r : Fin Mb) (q : Fin N), y = ix2 r q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_a1_ab_apply d hd r v, broadcastTo_1b_ab_apply b hb r v, hA (ix2 r v) (ix2 u v) hi0 rfl,
    hP (ix2 r v) (ix2 u v) hi0 rfl, hD (ix2 r (0 : Fin 1)) (ix2 u (0 : Fin 1)) hi0, hB]
  rfl

/-- The whole combine, with the column and the row given as reshapes of one-axis arrays, is the host's spelling: each
    one-axis array broadcast to a column (a row), that broadcast to the full shape, then the product and the two sums. -/
theorem combine_eq_host {M N : Nat} (A P : FVec Ideal ⟨2, ![M, N]⟩ .f32) (D : FVec Ideal ⟨1, ![M]⟩ .f32) (B : FVec Ideal ⟨1, ![N]⟩ .f32)
    (hD1 : (⟨1, ![M]⟩ : Shape).ShapeCasts ⟨2, ![M, 1]⟩) (hB1 : (⟨1, ![N]⟩ : Shape).ShapeCasts ⟨2, ![1, N]⟩)
    (gD1 : (⟨1, ![M]⟩ : Shape).BroadcastsInDim ⟨2, ![M, 1]⟩ ![0])
    (gD2 : (⟨2, ![M, 1]⟩ : Shape).BroadcastsInDim ⟨2, ![M, N]⟩ ![0, 1])
    (gB1 : (⟨1, ![N]⟩ : Shape).BroadcastsInDim ⟨2, ![1, N]⟩ ![1])
    (gB2 : (⟨2, ![1, N]⟩ : Shape).BroadcastsInDim ⟨2, ![M, N]⟩ ![0, 1]) :
    combine A P (shapeCast ⟨2, ![M, 1]⟩ D hD1) (shapeCast ⟨2, ![1, N]⟩ B hB1)
      = addf (addf A (mulf (broadcastInDim ⟨2, ![M, N]⟩ ![0, 1] gD2 (broadcastInDim ⟨2, ![M, 1]⟩ ![0] gD1 D)) P))
          (broadcastInDim ⟨2, ![M, N]⟩ ![0, 1] gB2 (broadcastInDim ⟨2, ![1, N]⟩ ![1] gB1 B)) := by
  funext i
  obtain ⟨p, q, rfl⟩ : ∃ (p : Fin M) (q : Fin N), i = ix2 p q := ⟨i 0, i 1, eq_ix2 i⟩
  have eD : shapeCast ⟨2, ![M, 1]⟩ D hD1 (ix2 p (0 : Fin 1)) = D (ix1 p) :=
    shapeCast_apply D hD1 (ix2 p (0 : Fin 1)) (ix1 p) (by
      rw [Shape.rowMajor_val_one, Shape.rowMajor_val_two]
      show p.val = p.val * 1 + 0
      omega)
  have eB : shapeCast ⟨2, ![1, N]⟩ B hB1 (ix2 (0 : Fin 1) q) = B (ix1 q) :=
    shapeCast_apply B hB1 (ix2 (0 : Fin 1) q) (ix1 q) (by
      rw [Shape.rowMajor_val_one, Shape.rowMajor_val_two]
      show q.val = 0 * N + q.val
      omega)
  have gD : broadcastInDim ⟨2, ![M, N]⟩ ![0, 1] gD2 (broadcastInDim ⟨2, ![M, 1]⟩ ![0] gD1 D) (ix2 p q) = D (ix1 p) := by
    rw [broadcastInDim_apply ![0, 1] gD2 _ (ix2 p q) (ix2 p (0 : Fin 1)) (fun a => by
      match a with
      | ⟨0, _⟩ =>
        show p.val = if M = 1 then 0 else p.val
        split
        · have := p.isLt; omega
        · rfl
      | ⟨1, _⟩ => rfl)]
    exact broadcastInDim_apply ![0] gD1 D (ix2 p (0 : Fin 1)) (ix1 p) (fun a => by
      match a with
      | ⟨0, _⟩ =>
        show p.val = if M = 1 then 0 else p.val
        split
        · have := p.isLt; omega
        · rfl)
  have gB : broadcastInDim ⟨2, ![M, N]⟩ ![0, 1] gB2 (broadcastInDim ⟨2, ![1, N]⟩ ![1] gB1 B) (ix2 p q) = B (ix1 q) := by
    rw [broadcastInDim_apply ![0, 1] gB2 _ (ix2 p q) (ix2 (0 : Fin 1) q) (fun a => by
      match a with
      | ⟨0, _⟩ => rfl
      | ⟨1, _⟩ =>
        show q.val = if N = 1 then 0 else q.val
        split
        · have := q.isLt; omega
        · rfl)]
    exact broadcastInDim_apply ![1] gB1 B (ix2 (0 : Fin 1) q) (ix1 q) (fun a => by
      match a with
      | ⟨0, _⟩ =>
        show q.val = if N = 1 then 0 else q.val
        split
        · have := q.isLt; omega
        · rfl)
  rw [addf_apply, addf_apply, mulf_apply, gD, gB]
  show (A (ix2 p q) + shapeCast ⟨2, ![M, 1]⟩ D hD1 (ix2 p (0 : Fin 1)) * P (ix2 p q))
    + shapeCast ⟨2, ![1, N]⟩ B hB1 (ix2 (0 : Fin 1) q) = _
  rw [eD, eB]

/-- The rectified combine is the host's maximum of that spelling with the zero constant broadcast to the full shape. -/
theorem combineRelu_eq_host {M N : Nat} (A P : FVec Ideal ⟨2, ![M, N]⟩ .f32) (D : FVec Ideal ⟨1, ![M]⟩ .f32) (B : FVec Ideal ⟨1, ![N]⟩ .f32)
    (hD1 : (⟨1, ![M]⟩ : Shape).ShapeCasts ⟨2, ![M, 1]⟩) (hB1 : (⟨1, ![N]⟩ : Shape).ShapeCasts ⟨2, ![1, N]⟩)
    (gD1 : (⟨1, ![M]⟩ : Shape).BroadcastsInDim ⟨2, ![M, 1]⟩ ![0])
    (gD2 : (⟨2, ![M, 1]⟩ : Shape).BroadcastsInDim ⟨2, ![M, N]⟩ ![0, 1])
    (gB1 : (⟨1, ![N]⟩ : Shape).BroadcastsInDim ⟨2, ![1, N]⟩ ![1])
    (gB2 : (⟨2, ![1, N]⟩ : Shape).BroadcastsInDim ⟨2, ![M, N]⟩ ![0, 1])
    (h0 : (⟨0, ![]⟩ : Shape).BroadcastsInDim ⟨2, ![M, N]⟩ ![]) :
    combineRelu A P (shapeCast ⟨2, ![M, 1]⟩ D hD1) (shapeCast ⟨2, ![1, N]⟩ B hB1)
      = maximumf (addf (addf A (mulf (broadcastInDim ⟨2, ![M, N]⟩ ![0, 1] gD2 (broadcastInDim ⟨2, ![M, 1]⟩ ![0] gD1 D)) P))
          (broadcastInDim ⟨2, ![M, N]⟩ ![0, 1] gB2 (broadcastInDim ⟨2, ![1, N]⟩ ![1] gB1 B)))
        (broadcastInDim ⟨2, ![M, N]⟩ ![] h0 (constant (F := Ideal) ⟨0, ![]⟩ .f32 0x00000000#32)) := by
  funext i
  rw [maximumf_apply, ← combine_eq_host A P D B hD1 hB1 gD1 gD2 gB1 gB2,
    broadcastInDim_apply ![] h0 (constant (F := Ideal) ⟨0, ![]⟩ .f32 0x00000000#32) i ix0 (fun a => a.elim0)]
  rfl

end Cert.NodeCombine

end
-- ==== Proof.Region1.lean ====
/-
  The first layer's node-wise combine, region by region: twenty-five tiles of 4000 rows; at each the aggregated messages
  plus the projected features scaled row by row, plus the bias row, rectified. Each tile's result is that tile of the
  whole combine, and the tiles cover the output array, so after the region the output array is the whole rectified
  combine of the four input arrays.
-/
import proofs.«151050_j51049981280880_2_alg».proof.Proof.Gen.KernelIdeal.Frame
import proofs.«151050_j51049981280880_2_alg».proof.Proof.LibNodeCombine

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)
open Cert.NodeCombine

variable (V : (c : Dev nD) → (b : Ref sig .tc) → Buf (Elt Ideal) ((c : Thread nD τ).loc b))

theorem hz : (![0, 0] : Fin 2 → Nat) = fun _ => 0 := funext fun a => by fin_cases a <;> rfl

/-! ## One grid point: the tile's combine is the tile of the whole combine -/

/-- The body's stored value at an index of the tile, when the blocks xA, xP, xD hold rows o, o + 1, … of A, P, D and the
    block xB is B: the whole combine at the index o rows further down (widening from bf16 is the identity here, and the
    body's reshapes keep their shapes). -/
theorem pay_tile (xP : Vec Ideal S4000x128 .bf16) (xA : Vec Ideal S4000x128 .f32) (xD : Vec Ideal S4000x1 .f32) (xB : Vec Ideal S1x128 .f32)
    (A P : S100000x128.Idx → EReal) (D : S100000x1.Idx → EReal) (B : S1x128.Idx → EReal) (o : Nat)
    (hA : ∀ (x : S4000x128.Idx) (k : S100000x128.Idx), (k 0).val = o + (x 0).val → (k 1).val = (x 1).val → xA x = A k)
    (hP : ∀ (x : S4000x128.Idx) (k : S100000x128.Idx), (k 0).val = o + (x 0).val → (k 1).val = (x 1).val → xP x = P k)
    (hD : ∀ (x : S4000x1.Idx) (k : S100000x1.Idx), (k 0).val = o + (x 0).val → xD x = D k)
    (hB : ∀ x, xB x = B x) (y : S4000x128.Idx) (i : S100000x128.Idx)
    (hi0 : (i 0).val = o + (y 0).val) (hi1 : (i 1).val = (y 1).val) :
    k1_pay1 xP xA xD xB y = combineRelu A P D B i := by
  unfold k1_pay1
  show maximumf (F := Ideal) (addf (F := Ideal) (addf (F := Ideal) (shapeCast _ xA _) (mulf (F := Ideal) (broadcastTo _ (shapeCast _ xD _) _) (extf (F := Ideal) .f32 (shapeCast _ xP _) _))) (broadcastTo _ (shapeCast _ xB _) _)) (broadcast _ (Scalar.ofBits (F := Ideal) .f32 0x00000000#32)) y = _
  rw [shapeCast_self, shapeCast_self, shapeCast_self, shapeCast_self, maximumf_apply, addf_apply, addf_apply, mulf_apply, extf_apply,
    broadcast_apply]
  exact congrArg (fun z => max z (Ideal.ofBits .f32 0x00000000#32))
    (tile_combine xA xP xD xB _ _ A P D B o hA hP hD hB y i hi0 hi1)

/-! ## The index maps over the grid, and the blocks read where the maps say -/

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t holds rows 4000·t, 4000·t + 1, … of its array. -/
theorem blk_agg (c : Dev nD) (t : Fin cfg1.N) (x : S4000x128.Idx) (k : S100000x128.Idx)
    (h0 : (k 0).val = t.val * 4000 + (x 0).val) (h1 : (k 1).val = (x 1).val) :
    iblk1 V c 0 t x = V c main_v41 k := by
  obtain ⟨e0, e1, -⟩ := idx_facts t
  show V c main_v41 (((cfg1.win 0).blk t).view.emb x) = V c main_v41 k
  refine congrArg _ (funext fun a => Fin.ext ?_)
  match a with
  | ⟨0, _⟩ => show win1_0.index t (0 : Fin 2) * 4000 + 1 * (x 0).val = (k 0).val; omega
  | ⟨1, _⟩ => show win1_0.index t (1 : Fin 2) * 128 + 1 * (x 1).val = (k 1).val; omega

/-- The projected features' block at point t holds the same rows of its array. -/
theorem blk_proj (c : Dev nD) (t : Fin cfg1.N) (x : S4000x128.Idx) (k : S100000x128.Idx)
    (h0 : (k 0).val = t.val * 4000 + (x 0).val) (h1 : (k 1).val = (x 1).val) :
    iblk1 V c 1 t x = V c main_v27 k := by
  obtain ⟨-, -, e2, e3, -⟩ := idx_facts t
  show V c main_v27 (((cfg1.win 1).blk t).view.emb x) = V c main_v27 k
  refine congrArg _ (funext fun a => Fin.ext ?_)
  match a with
  | ⟨0, _⟩ => show win1_1.index t (0 : Fin 2) * 4000 + 1 * (x 0).val = (k 0).val; omega
  | ⟨1, _⟩ => show win1_1.index t (1 : Fin 2) * 128 + 1 * (x 1).val = (k 1).val; omega

/-- The scaling column's block at point t holds the same rows of the one-column array. -/
theorem blk_col (c : Dev nD) (t : Fin cfg1.N) (x : S4000x1.Idx) (k : S100000x1.Idx)
    (h0 : (k 0).val = t.val * 4000 + (x 0).val) :
    iblk1 V c 2 t x = V c main_v43 k := by
  obtain ⟨-, -, -, -, e4, e5, -⟩ := idx_facts t
  have hx1 : (x 1).val < 1 := (x 1).isLt
  have hk1 : (k 1).val < 1 := (k 1).isLt
  show V c main_v43 (((cfg1.win 2).blk t).view.emb x) = V c main_v43 k
  refine congrArg _ (funext fun a => Fin.ext ?_)
  match a with
  | ⟨0, _⟩ => show win1_2.index t (0 : Fin 2) * 4000 + 1 * (x 0).val = (k 0).val; omega
  | ⟨1, _⟩ => show win1_2.index t (1 : Fin 2) * 1 + 1 * (x 1).val = (k 1).val; omega

/-- The bias row's block at every point is its whole array. -/
theorem blk_bias (c : Dev nD) (t : Fin cfg1.N) (x : S1x128.Idx) : iblk1 V c 3 t x = V c main_v42 x := by
  obtain ⟨-, -, -, -, -, -, e6, e7, -⟩ := idx_facts t
  show V c main_v42 (((cfg1.win 3).blk t).view.emb x) = V c main_v42 x
  refine congrArg _ (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- What point t writes back is block t of the whole combine of the four arrays as the region finds them. -/
theorem flushed_eq (c : Dev nD) (t : Fin cfg1.N) :
    (dat1 V c).flushed 4 t = ((cfg1.win 4).blk t).view.read (Elt Ideal)
      (combineRelu (V c main_v41) (V c main_v27) (V c main_v43) (V c main_v42)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz]
  obtain ⟨-, -, -, -, -, -, -, -, e8, e9⟩ := idx_facts t
  funext y
  show k1_pay1 (iblk1 V c 1 t) (iblk1 V c 0 t) (iblk1 V c 2 t) (iblk1 V c 3 t) y
    = combineRelu (V c main_v41) (V c main_v27) (V c main_v43) (V c main_v42) (((cfg1.win 4).blk t).view.emb y)
  refine pay_tile (iblk1 V c 1 t) (iblk1 V c 0 t) (iblk1 V c 2 t) (iblk1 V c 3 t)
    (V c main_v41) (V c main_v27) (V c main_v43) (V c main_v42) (t.val * 4000)
    (fun x k h0 h1 => blk_agg V c t x k h0 h1) (fun x k h0 h1 => blk_proj V c t x k h0 h1)
    (fun x k h0 => blk_col V c t x k h0) (fun x => blk_bias V c t x) y _ ?_ ?_
  · show win1_4.index t (0 : Fin 2) * 4000 + 1 * (y 0).val = t.val * 4000 + (y 0).val; omega
  · show win1_4.index t (1 : Fin 2) * 128 + 1 * (y 1).val = (y 1).val; omega

/-! ## The blocks cover the output array -/

theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v44).slice (win1_4.rect t)).set ↔ _
  rw [View.set_slice_whole, Rect.mem_set_unit]
  exact Iff.rfl

/-- Row r lies in the block of point r / 4000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 4000 < cfg1.N := by
    show (i 0).val / 4000 < 25
    omega
  obtain ⟨-, -, -, -, -, -, -, -, e8, e9⟩ := idx_facts ⟨(i 0).val / 4000, hlt⟩
  refine ⟨⟨(i 0).val / 4000, hlt⟩, flush1_4 _, ?_⟩
  rw [mem_blk]
  intro a
  match a with
  | ⟨0, _⟩ =>
    show win1_4.index ⟨(i 0).val / 4000, hlt⟩ (0 : Fin 2) * 4000 ≤ (i 0).val ∧ (i 0).val < win1_4.index ⟨(i 0).val / 4000, hlt⟩ (0 : Fin 2) * 4000 + 4000
    rw [e8]
    show (i 0).val / 4000 * 4000 ≤ (i 0).val ∧ (i 0).val < (i 0).val / 4000 * 4000 + 4000
    omega
  | ⟨1, _⟩ =>
    show win1_4.index ⟨(i 0).val / 4000, hlt⟩ (1 : Fin 2) * 128 ≤ (i 1).val ∧ (i 1).val < win1_4.index ⟨(i 0).val / 4000, hlt⟩ (1 : Fin 2) * 128 + 128
    omega

/-- The output array after the region: the whole combine of the four input arrays as the region finds them. -/
theorem final (c : Dev nD) : (dat1 V c).arrAt 4 cfg1.N
    = combineRelu (V c main_v41) (V c main_v27) (V c main_v43) (V c main_v42) :=
  (dat1 V c).arrAt_eq_of_cover 4 _ (fun t _ => flushed_eq V c t) cover

end Cert.KernelIdeal.Region1

end
-- ==== Proof.Region2.lean ====
/-
  The second projection, region by region: ten tiles of 10000 rows of the first layer's output, each multiplied by the
  whole second weight matrix into a zero accumulator and rounded to bf16 (the identity on the extended reals). Each
  tile's product is that tile of the whole product, and the ten tiles cover the output array, so after the region the
  output array is the whole product of the two input arrays.
-/
import proofs.«151050_j51049981280880_2_alg».proof.Proof.Gen.KernelIdeal.Frame
import proofs.«151050_j51049981280880_2_alg».proof.Proof.LibTileRows

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)
open Cert.LibTileRows

variable (V : (c : Dev nD) → (b : Ref sig .tc) → Buf (Elt Ideal) ((c : Thread nD τ).loc b))

theorem hz : (![0, 0] : Fin 2 → Nat) = fun _ => 0 := funext fun a => by fin_cases a <;> rfl

/-! ## The dimension numbers: axis 1 of the left operand against axis 0 of the right, no batch axis -/

theorem lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## One grid point: the tile's product is the tile of the whole product -/

/-- The body's stored value at an index of the tile, when the left block holds rows o, o + 1, … of X and the right
    block is W: the whole product at the index o rows further down (rounding to bf16 is the identity here). -/
theorem pay_tile (x0 : Vec Ideal S10000x128 .f32) (x1 : Vec Ideal S128x128 .f32) (X : S100000x128.Idx → EReal) (W : S128x128.Idx → EReal) (o : Nat)
    (hX : ∀ (x : S10000x128.Idx) (k : S100000x128.Idx), (k 0).val = o + (x 0).val → (k 1).val = (x 1).val → x0 x = X k)
    (hW : ∀ x, x1 x = W x) (y : S10000x128.Idx) (i : S100000x128.Idx)
    (hi0 : (i 0).val = o + (y 0).val) (hi1 : (i 1).val = (y 1).val) :
    k2_pay1 x0 x1 y = rowsProd X W i := by
  unfold k2_pay1
  rw [shapeCast_self]
  exact tile_rowsProd dot_S10000x128_S128x128_S10000x128_1_0_0_1_n_n rfl rfl lhs_0 lhs_1 rhs_0 rhs_1 none
    (truncf .bf16 x0 bitsLt_bf16_f32) (truncf .bf16 x1 bitsLt_bf16_f32) X W o hX hW y i hi0 hi1

/-! ## The index maps over the grid, and the blocks read where the maps say -/

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t holds rows 10000·t, 10000·t + 1, … of its array. -/
theorem blk_left (c : Dev nD) (t : Fin cfg2.N) (x : S10000x128.Idx) (k : S100000x128.Idx)
    (h0 : (k 0).val = t.val * 10000 + (x 0).val) (h1 : (k 1).val = (x 1).val) :
    iblk2 V c 0 t x = V c main_v44 k := by
  obtain ⟨e0, e1, -, -, -, -⟩ := idx_facts t
  show V c main_v44 (((cfg2.win 0).blk t).view.emb x) = V c main_v44 k
  refine congrArg _ (funext fun a => Fin.ext ?_)
  match a with
  | ⟨0, _⟩ => show win2_0.index t (0 : Fin 2) * 10000 + 1 * (x 0).val = (k 0).val; omega
  | ⟨1, _⟩ => show win2_0.index t (1 : Fin 2) * 128 + 1 * (x 1).val = (k 1).val; omega

/-- The right window's block at every point is its whole array. -/
theorem blk_right (c : Dev nD) (t : Fin cfg2.N) (x : S128x128.Idx) : iblk2 V c 1 t x = V c main_arg5 x := by
  obtain ⟨-, -, e2, e3, -, -⟩ := idx_facts t
  show V c main_arg5 (((cfg2.win 1).blk t).view.emb x) = V c main_arg5 x
  refine congrArg _ (funext fun a => Fin.ext ?_)
  match a with
  | ⟨0, _⟩ => show win2_1.index t (0 : Fin 2) * 128 + 1 * (x 0).val = (x 0).val; omega
  | ⟨1, _⟩ => show win2_1.index t (1 : Fin 2) * 128 + 1 * (x 1).val = (x 1).val; omega

/-- What point t writes back is block t of the whole product of the two arrays as the region finds them. -/
theorem flushed_eq (c : Dev nD) (t : Fin cfg2.N) :
    (dat2 V c).flushed 2 t = ((cfg2.win 2).blk t).view.read (Elt Ideal) (rowsProd (V c main_v44) (V c main_arg5)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨-, -, -, -, e4, e5⟩ := idx_facts t
  funext y
  show k2_pay1 (iblk2 V c 0 t) (iblk2 V c 1 t) y = rowsProd (V c main_v44) (V c main_arg5) (((cfg2.win 2).blk t).view.emb y)
  refine pay_tile (iblk2 V c 0 t) (iblk2 V c 1 t) (V c main_v44) (V c main_arg5) (t.val * 10000)
    (fun x k h0 h1 => blk_left V c t x k h0 h1) (fun x => blk_right V c t x) y _ ?_ ?_
  · show win2_2.index t (0 : Fin 2) * 10000 + 1 * (y 0).val = t.val * 10000 + (y 0).val; omega
  · show win2_2.index t (1 : Fin 2) * 128 + 1 * (y 1).val = (y 1).val; omega

/-! ## The blocks cover the output array -/

theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Row r lies in the block of point r / 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 10000 < cfg2.N := by
    show (i 0).val / 10000 < 10
    omega
  obtain ⟨-, -, -, -, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 128 ≤ (i 1).val ∧ (i 1).val < win2_2.index ⟨(i 0).val / 10000, hlt⟩ (1 : Fin 2) * 128 + 128
    omega

/-- The output array after the region: the whole product of the two input arrays as the region finds them. -/
theorem final (c : Dev nD) : (dat2 V c).arrAt 2 cfg2.N = rowsProd (V c main_v44) (V c main_arg5) :=
  (dat2 V c).arrAt_eq_of_cover 2 _ (fun t _ => flushed_eq V c t) cover

end Cert.KernelIdeal.Region2

end
-- ==== Proof.Region3.lean ====
/-
  The second layer's node-wise combine, region by region: twenty-five tiles of 4000 rows; at each the aggregated
  messages plus the projected features scaled row by row, plus the bias row, rectified. Each tile's result is that tile
  of the whole combine, and the tiles cover the output array, so after the region the output array is the whole
  rectified combine of the four input arrays.
-/
import proofs.«151050_j51049981280880_2_alg».proof.Proof.Gen.KernelIdeal.Frame
import proofs.«151050_j51049981280880_2_alg».proof.Proof.LibNodeCombine

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)
open Cert.NodeCombine

variable (V : (c : Dev nD) → (b : Ref sig .tc) → Buf (Elt Ideal) ((c : Thread nD τ).loc b))

theorem hz : (![0, 0] : Fin 2 → Nat) = fun _ => 0 := funext fun a => by fin_cases a <;> rfl

/-! ## One grid point: the tile's combine is the tile of the whole combine -/

/-- The body's stored value at an index of the tile, when the blocks xA, xP, xD hold rows o, o + 1, … of A, P, D and the
    block xB is B: the whole combine at the index o rows further down (widening from bf16 is the identity here, and the
    body's reshapes keep their shapes). -/
theorem pay_tile (xP : Vec Ideal S4000x128 .bf16) (xA : Vec Ideal S4000x128 .f32) (xD : Vec Ideal S4000x1 .f32) (xB : Vec Ideal S1x128 .f32)
    (A P : S100000x128.Idx → EReal) (D : S100000x1.Idx → EReal) (B : S1x128.Idx → EReal) (o : Nat)
    (hA : ∀ (x : S4000x128.Idx) (k : S100000x128.Idx), (k 0).val = o + (x 0).val → (k 1).val = (x 1).val → xA x = A k)
    (hP : ∀ (x : S4000x128.Idx) (k : S100000x128.Idx), (k 0).val = o + (x 0).val → (k 1).val = (x 1).val → xP x = P k)
    (hD : ∀ (x : S4000x1.Idx) (k : S100000x1.Idx), (k 0).val = o + (x 0).val → xD x = D k)
    (hB : ∀ x, xB x = B x) (y : S4000x128.Idx) (i : S100000x128.Idx)
    (hi0 : (i 0).val = o + (y 0).val) (hi1 : (i 1).val = (y 1).val) :
    k3_pay1 xP xA xD xB y = combineRelu A P D B i := by
  unfold k3_pay1
  show maximumf (F := Ideal) (addf (F := Ideal) (addf (F := Ideal) (shapeCast _ xA _) (mulf (F := Ideal) (broadcastTo _ (shapeCast _ xD _) _) (extf (F := Ideal) .f32 (shapeCast _ xP _) _))) (broadcastTo _ (shapeCast _ xB _) _)) (broadcast _ (Scalar.ofBits (F := Ideal) .f32 0x00000000#32)) y = _
  rw [shapeCast_self, shapeCast_self, shapeCast_self, shapeCast_self, maximumf_apply, addf_apply, addf_apply, mulf_apply, extf_apply,
    broadcast_apply]
  exact congrArg (fun z => max z (Ideal.ofBits .f32 0x00000000#32))
    (tile_combine xA xP xD xB _ _ A P D B o hA hP hD hB y i hi0 hi1)

/-! ## The index maps over the grid, and the blocks read where the maps say -/

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t holds rows 4000·t, 4000·t + 1, … of its array. -/
theorem blk_agg (c : Dev nD) (t : Fin cfg3.N) (x : S4000x128.Idx) (k : S100000x128.Idx)
    (h0 : (k 0).val = t.val * 4000 + (x 0).val) (h1 : (k 1).val = (x 1).val) :
    iblk3 V c 0 t x = V c main_v59 k := by
  obtain ⟨e0, e1, -⟩ := idx_facts t
  show V c main_v59 (((cfg3.win 0).blk t).view.emb x) = V c main_v59 k
  refine congrArg _ (funext fun a => Fin.ext ?_)
  match a with
  | ⟨0, _⟩ => show win3_0.index t (0 : Fin 2) * 4000 + 1 * (x 0).val = (k 0).val; omega
  | ⟨1, _⟩ => show win3_0.index t (1 : Fin 2) * 128 + 1 * (x 1).val = (k 1).val; omega

/-- The projected features' block at point t holds the same rows of its array. -/
theorem blk_proj (c : Dev nD) (t : Fin cfg3.N) (x : S4000x128.Idx) (k : S100000x128.Idx)
    (h0 : (k 0).val = t.val * 4000 + (x 0).val) (h1 : (k 1).val = (x 1).val) :
    iblk3 V c 1 t x = V c main_v45 k := by
  obtain ⟨-, -, e2, e3, -⟩ := idx_facts t
  show V c main_v45 (((cfg3.win 1).blk t).view.emb x) = V c main_v45 k
  refine congrArg _ (funext fun a => Fin.ext ?_)
  match a with
  | ⟨0, _⟩ => show win3_1.index t (0 : Fin 2) * 4000 + 1 * (x 0).val = (k 0).val; omega
  | ⟨1, _⟩ => show win3_1.index t (1 : Fin 2) * 128 + 1 * (x 1).val = (k 1).val; omega

/-- The scaling column's block at point t holds the same rows of the one-column array. -/
theorem blk_col (c : Dev nD) (t : Fin cfg3.N) (x : S4000x1.Idx) (k : S100000x1.Idx)
    (h0 : (k 0).val = t.val * 4000 + (x 0).val) :
    iblk3 V c 2 t x = V c main_v61 k := by
  obtain ⟨-, -, -, -, e4, e5, -⟩ := idx_facts t
  have hx1 : (x 1).val < 1 := (x 1).isLt
  have hk1 : (k 1).val < 1 := (k 1).isLt
  show V c main_v61 (((cfg3.win 2).blk t).view.emb x) = V c main_v61 k
  refine congrArg _ (funext fun a => Fin.ext ?_)
  match a with
  | ⟨0, _⟩ => show win3_2.index t (0 : Fin 2) * 4000 + 1 * (x 0).val = (k 0).val; omega
  | ⟨1, _⟩ => show win3_2.index t (1 : Fin 2) * 1 + 1 * (x 1).val = (k 1).val; omega

/-- The bias row's block at every point is its whole array. -/
theorem blk_bias (c : Dev nD) (t : Fin cfg3.N) (x : S1x128.Idx) : iblk3 V c 3 t x = V c main_v60 x := by
  obtain ⟨-, -, -, -, -, -, e6, e7, -⟩ := idx_facts t
  show V c main_v60 (((cfg3.win 3).blk t).view.emb x) = V c main_v60 x
  refine congrArg _ (funext fun a => Fin.ext ?_)
  match a with
  | ⟨0, _⟩ => show win3_3.index t (0 : Fin 2) * 1 + 1 * (x 0).val = (x 0).val; omega
  | ⟨1, _⟩ => show win3_3.index t (1 : Fin 2) * 128 + 1 * (x 1).val = (x 1).val; omega

/-- What point t writes back is block t of the whole combine of the four arrays as the region finds them. -/
theorem flushed_eq (c : Dev nD) (t : Fin cfg3.N) :
    (dat3 V c).flushed 4 t = ((cfg3.win 4).blk t).view.read (Elt Ideal)
      (combineRelu (V c main_v59) (V c main_v45) (V c main_v61) (V c main_v60)) := by
  show (cfg3.win 4).cut (grid3.coords t) ((dat3 V c).after 4 t) = _
  rw [after3_4]
  unfold out3_4
  rw [View.canon_unit_zero hz]
  simp only [View.ld_unit_zero (S := S4000x128) hz, View.ld_unit_zero (S := S4000x1) hz, View.ld_unit_zero (S := S1x128) hz]
  obtain ⟨-, -, -, -, -, -, -, -, e8, e9⟩ := idx_facts t
  funext y
  show k3_pay1 (iblk3 V c 1 t) (iblk3 V c 0 t) (iblk3 V c 2 t) (iblk3 V c 3 t) y
    = combineRelu (V c main_v59) (V c main_v45) (V c main_v61) (V c main_v60) (((cfg3.win 4).blk t).view.emb y)
  refine pay_tile (iblk3 V c 1 t) (iblk3 V c 0 t) (iblk3 V c 2 t) (iblk3 V c 3 t)
    (V c main_v59) (V c main_v45) (V c main_v61) (V c main_v60) (t.val * 4000)
    (fun x k h0 h1 => blk_agg V c t x k h0 h1) (fun x k h0 h1 => blk_proj V c t x k h0 h1)
    (fun x k h0 => blk_col V c t x k h0) (fun x => blk_bias V c t x) y _ ?_ ?_
  · show win3_4.index t (0 : Fin 2) * 4000 + 1 * (y 0).val = t.val * 4000 + (y 0).val; omega
  · show win3_4.index t (1 : Fin 2) * 128 + 1 * (y 1).val = (y 1).val; omega

/-! ## The blocks cover the output array -/

theorem mem_blk (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v62).slice (win3_4.rect t)).set ↔ _
  rw [View.set_slice_whole, Rect.mem_set_unit]
  exact Iff.rfl

/-- Row r lies in the block of point r / 4000. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hlt : (i 0).val / 4000 < cfg3.N := by
    show (i 0).val / 4000 < 25
    omega
  obtain ⟨-, -, -, -, -, -, -, -, e8, e9⟩ := idx_facts ⟨(i 0).val / 4000, hlt⟩
  refine ⟨⟨(i 0).val / 4000, hlt⟩, flush3_4 _, ?_⟩
  rw [mem_blk]
  intro a
  match a with
  | ⟨0, _⟩ =>
    show win3_4.index ⟨(i 0).val / 4000, hlt⟩ (0 : Fin 2) * 4000 ≤ (i 0).val ∧ (i 0).val < win3_4.index ⟨(i 0).val / 4000, hlt⟩ (0 : Fin 2) * 4000 + 4000
    rw [e8]
    show (i 0).val / 4000 * 4000 ≤ (i 0).val ∧ (i 0).val < (i 0).val / 4000 * 4000 + 4000
    omega
  | ⟨1, _⟩ =>
    show win3_4.index ⟨(i 0).val / 4000, hlt⟩ (1 : Fin 2) * 128 ≤ (i 1).val ∧ (i 1).val < win3_4.index ⟨(i 0).val / 4000, hlt⟩ (1 : Fin 2) * 128 + 128
    omega

/-- The output array after the region: the whole combine of the four input arrays as the region finds them. -/
theorem final (c : Dev nD) : (dat3 V c).arrAt 4 cfg3.N
    = combineRelu (V c main_v59) (V c main_v45) (V c main_v61) (V c main_v60) :=
  (dat3 V c).arrAt_eq_of_cover 4 _ (fun t _ => flushed_eq V c t) cover

end Cert.KernelIdeal.Region3

end
-- ==== Proof.Region4.lean ====
/-
  The third projection, region by region: ten tiles of 10000 rows of the second layer's output, each multiplied by the
  whole third weight matrix (128 by 64) into a zero accumulator and rounded to bf16 (the identity on the extended
  reals). Each tile's product is that tile of the whole product, and the ten tiles cover the output array, so after the
  region the output array is the whole product of the two input arrays.
-/
import proofs.«151050_j51049981280880_2_alg».proof.Proof.Gen.KernelIdeal.Frame
import proofs.«151050_j51049981280880_2_alg».proof.Proof.LibTileRows

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)
open Cert.LibTileRows

variable (V : (c : Dev nD) → (b : Ref sig .tc) → Buf (Elt Ideal) ((c : Thread nD τ).loc b))

theorem hz : (![0, 0] : Fin 2 → Nat) = fun _ => 0 := funext fun a => by fin_cases a <;> rfl

/-! ## The dimension numbers: axis 1 of the left operand against axis 0 of the right, no batch axis -/

theorem lhs_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## One grid point: the tile's product is the tile of the whole product -/

/-- The body's stored value at an index of the tile, when the left block holds rows o, o + 1, … of X and the right
    block is W: the whole product at the index o rows further down (rounding to bf16 is the identity here). -/
theorem pay_tile (x0 : Vec Ideal S10000x128 .f32) (x1 : Vec Ideal S128x64 .f32) (X : S100000x128.Idx → EReal) (W : S128x64.Idx → EReal) (o : Nat)
    (hX : ∀ (x : S10000x128.Idx) (k : S100000x128.Idx), (k 0).val = o + (x 0).val → (k 1).val = (x 1).val → x0 x = X k)
    (hW : ∀ x, x1 x = W x) (y : S10000x64.Idx) (i : S100000x64.Idx)
    (hi0 : (i 0).val = o + (y 0).val) (hi1 : (i 1).val = (y 1).val) :
    k4_pay1 x0 x1 y = rowsProd X W i := by
  unfold k4_pay1
  rw [shapeCast_self]
  exact tile_rowsProd dot_S10000x128_S128x64_S10000x64_1_0_0_1_n_n rfl rfl lhs_0 lhs_1 rhs_0 rhs_1 none
    (truncf .bf16 x0 bitsLt_bf16_f32) (truncf .bf16 x1 bitsLt_bf16_f32) X W o hX hW y i hi0 hi1

/-! ## The index maps over the grid, and the blocks read where the maps say -/

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t holds rows 10000·t, 10000·t + 1, … of its array. -/
theorem blk_left (c : Dev nD) (t : Fin cfg4.N) (x : S10000x128.Idx) (k : S100000x128.Idx)
    (h0 : (k 0).val = t.val * 10000 + (x 0).val) (h1 : (k 1).val = (x 1).val) :
    iblk4 V c 0 t x = V c main_v62 k := by
  obtain ⟨e0, e1, -, -, -, -⟩ := idx_facts t
  show V c main_v62 (((cfg4.win 0).blk t).view.emb x) = V c main_v62 k
  refine congrArg _ (funext fun a => Fin.ext ?_)
  match a with
  | ⟨0, _⟩ => show win4_0.index t (0 : Fin 2) * 10000 + 1 * (x 0).val = (k 0).val; omega
  | ⟨1, _⟩ => show win4_0.index t (1 : Fin 2) * 128 + 1 * (x 1).val = (k 1).val; omega

/-- The right window's block at every point is its whole array. -/
theorem blk_right (c : Dev nD) (t : Fin cfg4.N) (x : S128x64.Idx) : iblk4 V c 1 t x = V c main_arg7 x := by
  obtain ⟨-, -, e2, e3, -, -⟩ := idx_facts t
  show V c main_arg7 (((cfg4.win 1).blk t).view.emb x) = V c main_arg7 x
  refine congrArg _ (funext fun a => Fin.ext ?_)
  match a with
  | ⟨0, _⟩ => show win4_1.index t (0 : Fin 2) * 128 + 1 * (x 0).val = (x 0).val; omega
  | ⟨1, _⟩ => show win4_1.index t (1 : Fin 2) * 64 + 1 * (x 1).val = (x 1).val; omega

/-- What point t writes back is block t of the whole product of the two arrays as the region finds them. -/
theorem flushed_eq (c : Dev nD) (t : Fin cfg4.N) :
    (dat4 V c).flushed 2 t = ((cfg4.win 2).blk t).view.read (Elt Ideal) (rowsProd (V c main_v62) (V c main_arg7)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x64) hz]
  obtain ⟨-, -, -, -, e4, e5⟩ := idx_facts t
  funext y
  show k4_pay1 (iblk4 V c 0 t) (iblk4 V c 1 t) y = rowsProd (V c main_v62) (V c main_arg7) (((cfg4.win 2).blk t).view.emb y)
  refine pay_tile (iblk4 V c 0 t) (iblk4 V c 1 t) (V c main_v62) (V c main_arg7) (t.val * 10000)
    (fun x k h0 h1 => blk_left V c t x k h0 h1) (fun x => blk_right V c t x) y _ ?_ ?_
  · show win4_2.index t (0 : Fin 2) * 10000 + 1 * (y 0).val = t.val * 10000 + (y 0).val; omega
  · show win4_2.index t (1 : Fin 2) * 64 + 1 * (y 1).val = (y 1).val; omega

/-! ## The blocks cover the output array -/

theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v63).slice (win4_2.rect t)).set ↔ _
  rw [View.set_slice_whole, Rect.mem_set_unit]
  exact Iff.rfl

/-- Row r lies in the block of point r / 10000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hlt : (i 0).val / 10000 < cfg4.N := by
    show (i 0).val / 10000 < 10
    omega
  obtain ⟨-, -, -, -, e4, e5⟩ := idx_facts ⟨(i 0).val / 10000, hlt⟩
  refine ⟨⟨(i 0).val / 10000, hlt⟩, flush4_2 _, ?_⟩
  rw [mem_blk]
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, hlt⟩ (1 : Fin 2) * 64 ≤ (i 1).val ∧ (i 1).val < win4_2.index ⟨(i 0).val / 10000, hlt⟩ (1 : Fin 2) * 64 + 64
    omega

/-- The output array after the region: the whole product of the two input arrays as the region finds them. -/
theorem final (c : Dev nD) : (dat4 V c).arrAt 2 cfg4.N = rowsProd (V c main_v62) (V c main_arg7) :=
  (dat4 V c).arrAt_eq_of_cover 2 _ (fun t _ => flushed_eq V c t) cover

end Cert.KernelIdeal.Region4

end
-- ==== Proof.Region5.lean ====
/-
  The last layer's node-wise combine, region by region: twenty-five tiles of 4000 rows of width 64; at each the
  aggregated messages plus the projected features scaled row by row, plus the bias row (no rectifier on the last
  layer). Each tile's result is that tile of the whole combine, and the tiles cover the output array, so after the
  region the output array is the whole combine of the four input arrays.
-/
import proofs.«151050_j51049981280880_2_alg».proof.Proof.Gen.KernelIdeal.Frame
import proofs.«151050_j51049981280880_2_alg».proof.Proof.LibNodeCombine

set_option maxRecDepth 16384

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat Cfg Window)
open Cert.NodeCombine

variable (V : (c : Dev nD) → (b : Ref sig .tc) → Buf (Elt Ideal) ((c : Thread nD τ).loc b))

theorem hz : (![0, 0] : Fin 2 → Nat) = fun _ => 0 := funext fun a => by fin_cases a <;> rfl

/-! ## One grid point: the tile's combine is the tile of the whole combine -/

/-- The body's stored value at an index of the tile, when the blocks xA, xP, xD hold rows o, o + 1, … of A, P, D and the
    block xB is B: the whole combine at the index o rows further down (widening from bf16 is the identity here, and the
    body's reshapes keep their shapes). -/
theorem pay_tile (xP : Vec Ideal S4000x64 .bf16) (xA : Vec Ideal S4000x64 .f32) (xD : Vec Ideal S4000x1 .f32) (xB : Vec Ideal S1x64 .f32)
    (A P : S100000x64.Idx → EReal) (D : S100000x1.Idx → EReal) (B : S1x64.Idx → EReal) (o : Nat)
    (hA : ∀ (x : S4000x64.Idx) (k : S100000x64.Idx), (k 0).val = o + (x 0).val → (k 1).val = (x 1).val → xA x = A k)
    (hP : ∀ (x : S4000x64.Idx) (k : S100000x64.Idx), (k 0).val = o + (x 0).val → (k 1).val = (x 1).val → xP x = P k)
    (hD : ∀ (x : S4000x1.Idx) (k : S100000x1.Idx), (k 0).val = o + (x 0).val → xD x = D k)
    (hB : ∀ x, xB x = B x) (y : S4000x64.Idx) (i : S100000x64.Idx)
    (hi0 : (i 0).val = o + (y 0).val) (hi1 : (i 1).val = (y 1).val) :
    k5_pay1 xP xA xD xB y = combine A P D B i := by
  unfold k5_pay1
  show addf (F := Ideal) (addf (F := Ideal) (shapeCast _ xA _) (mulf (F := Ideal) (broadcastTo _ (shapeCast _ xD _) _) (extf (F := Ideal) .f32 (shapeCast _ xP _) _))) (broadcastTo _ (shapeCast _ xB _) _) y = _
  rw [shapeCast_self, shapeCast_self, shapeCast_self, shapeCast_self, addf_apply, addf_apply, mulf_apply, extf_apply]
  exact tile_combine xA xP xD xB _ _ A P D B o hA hP hD hB y i hi0 hi1

/-! ## The index maps over the grid, and the blocks read where the maps say -/

theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The aggregate's block at point t holds rows 4000·t, 4000·t + 1, … of its array. -/
theorem blk_agg (c : Dev nD) (t : Fin cfg5.N) (x : S4000x64.Idx) (k : S100000x64.Idx)
    (h0 : (k 0).val = t.val * 4000 + (x 0).val) (h1 : (k 1).val = (x 1).val) :
    iblk5 V c 0 t x = V c main_v77 k := by
  obtain ⟨e0, e1, -⟩ := idx_facts t
  show V c main_v77 (((cfg5.win 0).blk t).view.emb x) = V c main_v77 k
  refine congrArg _ (funext fun a => Fin.ext ?_)
  match a with
  | ⟨0, _⟩ => show win5_0.index t (0 : Fin 2) * 4000 + 1 * (x 0).val = (k 0).val; omega
  | ⟨1, _⟩ => show win5_0.index t (1 : Fin 2) * 64 + 1 * (x 1).val = (k 1).val; omega

/-- The projected features' block at point t holds the same rows of its array. -/
theorem blk_proj (c : Dev nD) (t : Fin cfg5.N) (x : S4000x64.Idx) (k : S100000x64.Idx)
    (h0 : (k 0).val = t.val * 4000 + (x 0).val) (h1 : (k 1).val = (x 1).val) :
    iblk5 V c 1 t x = V c main_v63 k := by
  obtain ⟨-, -, e2, e3, -⟩ := idx_facts t
  show V c main_v63 (((cfg5.win 1).blk t).view.emb x) = V c main_v63 k
  refine congrArg _ (funext fun a => Fin.ext ?_)
  match a with
  | ⟨0, _⟩ => show win5_1.index t (0 : Fin 2) * 4000 + 1 * (x 0).val = (k 0).val; omega
  | ⟨1, _⟩ => show win5_1.index t (1 : Fin 2) * 64 + 1 * (x 1).val = (k 1).val; omega

/-- The scaling column's block at point t holds the same rows of the one-column array. -/
theorem blk_col (c : Dev nD) (t : Fin cfg5.N) (x : S4000x1.Idx) (k : S100000x1.Idx)
    (h0 : (k 0).val = t.val * 4000 + (x 0).val) :
    iblk5 V c 2 t x = V c main_v79 k := by
  obtain ⟨-, -, -, -, e4, e5, -⟩ := idx_facts t
  have hx1 : (x 1).val < 1 := (x 1).isLt
  have hk1 : (k 1).val < 1 := (k 1).isLt
  show V c main_v79 (((cfg5.win 2).blk t).view.emb x) = V c main_v79 k
  refine congrArg _ (funext fun a => Fin.ext ?_)
  match a with
  | ⟨0, _⟩ => show win5_2.index t (0 : Fin 2) * 4000 + 1 * (x 0).val = (k 0).val; omega
  | ⟨1, _⟩ => show win5_2.index t (1 : Fin 2) * 1 + 1 * (x 1).val = (k 1).val; omega

/-- The bias row's block at every point is its whole array. -/
theorem blk_bias (c : Dev nD) (t : Fin cfg5.N) (x : S1x64.Idx) : iblk5 V c 3 t x = V c main_v78 x := by
  obtain ⟨-, -, -, -, -, -, e6, e7, -⟩ := idx_facts t
  show V c main_v78 (((cfg5.win 3).blk t).view.emb x) = V c main_v78 x
  refine congrArg _ (funext fun a => Fin.ext ?_)
  match a with
  | ⟨0, _⟩ => show win5_3.index t (0 : Fin 2) * 1 + 1 * (x 0).val = (x 0).val; omega
  | ⟨1, _⟩ => show win5_3.index t (1 : Fin 2) * 64 + 1 * (x 1).val = (x 1).val; omega

/-- What point t writes back is block t of the whole combine of the four arrays as the region finds them. -/
theorem flushed_eq (c : Dev nD) (t : Fin cfg5.N) :
    (dat5 V c).flushed 4 t = ((cfg5.win 4).blk t).view.read (Elt Ideal)
      (combine (V c main_v77) (V c main_v63) (V c main_v79) (V c main_v78)) := by
  show (cfg5.win 4).cut (grid5.coords t) ((dat5 V c).after 4 t) = _
  rw [after5_4]
  unfold out5_4
  rw [View.canon_unit_zero hz]
  simp only [View.ld_unit_zero (S := S4000x64) hz, View.ld_unit_zero (S := S4000x1) hz, View.ld_unit_zero (S := S1x64) hz]
  obtain ⟨-, -, -, -, -, -, -, -, e8, e9⟩ := idx_facts t
  funext y
  show k5_pay1 (iblk5 V c 1 t) (iblk5 V c 0 t) (iblk5 V c 2 t) (iblk5 V c 3 t) y
    = combine (V c main_v77) (V c main_v63) (V c main_v79) (V c main_v78) (((cfg5.win 4).blk t).view.emb y)
  refine pay_tile (iblk5 V c 1 t) (iblk5 V c 0 t) (iblk5 V c 2 t) (iblk5 V c 3 t)
    (V c main_v77) (V c main_v63) (V c main_v79) (V c main_v78) (t.val * 4000)
    (fun x k h0 h1 => blk_agg V c t x k h0 h1) (fun x k h0 h1 => blk_proj V c t x k h0 h1)
    (fun x k h0 => blk_col V c t x k h0) (fun x => blk_bias V c t x) y _ ?_ ?_
  · show win5_4.index t (0 : Fin 2) * 4000 + 1 * (y 0).val = t.val * 4000 + (y 0).val; omega
  · show win5_4.index t (1 : Fin 2) * 64 + 1 * (y 1).val = (y 1).val; omega

/-! ## The blocks cover the output array -/

theorem mem_blk (t : Fin cfg5.N) (i : S100000x64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v80).slice (win5_4.rect t)).set ↔ _
  rw [View.set_slice_whole, Rect.mem_set_unit]
  exact Iff.rfl

/-- Row r lies in the block of point r / 4000. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hlt : (i 0).val / 4000 < cfg5.N := by
    show (i 0).val / 4000 < 25
    omega
  obtain ⟨-, -, -, -, -, -, -, -, e8, e9⟩ := idx_facts ⟨(i 0).val / 4000, hlt⟩
  refine ⟨⟨(i 0).val / 4000, hlt⟩, flush5_4 _, ?_⟩
  rw [mem_blk]
  intro a
  match a with
  | ⟨0, _⟩ =>
    show win5_4.index ⟨(i 0).val / 4000, hlt⟩ (0 : Fin 2) * 4000 ≤ (i 0).val ∧ (i 0).val < win5_4.index ⟨(i 0).val / 4000, hlt⟩ (0 : Fin 2) * 4000 + 4000
    rw [e8]
    show (i 0).val / 4000 * 4000 ≤ (i 0).val ∧ (i 0).val < (i 0).val / 4000 * 4000 + 4000
    omega
  | ⟨1, _⟩ =>
    show win5_4.index ⟨(i 0).val / 4000, hlt⟩ (1 : Fin 2) * 64 ≤ (i 1).val ∧ (i 1).val < win5_4.index ⟨(i 0).val / 4000, hlt⟩ (1 : Fin 2) * 64 + 64
    omega

/-- The output array after the region: the whole combine of the four input arrays as the region finds them. -/
theorem final (c : Dev nD) : (dat5 V c).arrAt 4 cfg5.N
    = combine (V c main_v77) (V c main_v63) (V c main_v79) (V c main_v78) :=
  (dat5 V c).arrAt_eq_of_cover 4 _ (fun t _ => flushed_eq V c t) cover

end Cert.KernelIdeal.Region5

end
-- ==== Proof.HostStretch.lean ====
/-
  The host operations between the regions, each stretch as a few whole-array functions.

  Before the first region the program splits the edge list into its two rows (sources and destinations), sums the edge
  weights into their destination nodes, adds one, takes the reciprocal square root, and forms the per-edge coefficient
  (the source's value times the weight times the destination's value) and the per-node self coefficient (the value
  squared). Between a projection and its combine it gathers the projected rows by source, scales them by the per-edge
  coefficient, and sums them into their destination nodes; the bias and the self coefficient are reshaped to a row and a
  column. Each function below is one of those values, spelt with the operations the program applies; each theorem reads
  one buffer after a stretch of operations from any buffer contents before it.
-/
import proofs.«151050_j51049981280880_2_alg».proof.Proof.Gen.KernelIdeal.Launch
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.ShloMosaic.StableHlo

variable {F : FTy → Type} [FloatOps F]

/-- Row 0 of the edge list: the source node of each edge. -/
def srcOf (x1 : (⟨S2x1600000, .i32⟩ : BufTy).Contents (Elt F)) : (⟨S1600000, .i32⟩ : BufTy).Contents (Elt F) :=
  shapeCast S1600000 (extractStridedSlice S1x1600000 ![0, 0] x1 slices_S2x1600000_S1x1600000_0_0) shapeCasts_S1x1600000_S1600000

/-- Row 1 of the edge list: the destination node of each edge. -/
def dstOf (x1 : (⟨S2x1600000, .i32⟩ : BufTy).Contents (Elt F)) : (⟨S1600000, .i32⟩ : BufTy).Contents (Elt F) :=
  shapeCast S1600000 (extractStridedSlice S1x1600000 ![1, 0] x1 slices_S2x1600000_S1x1600000_1_0) shapeCasts_S1x1600000_S1600000

/-- A node index with the negative values moved up by the number of nodes. -/
def wrapIdx (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- The reciprocal square root of one plus the weights summed into their destination nodes. -/
def invSqrtDeg (dst : (⟨S1600000, .i32⟩ : BufTy).Contents (Elt F)) (w : (⟨S1600000, .f32⟩ : BufTy).Contents (Elt F)) : (⟨S100000, .f32⟩ : BufTy).Contents (Elt F) :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst) w)
    (broadcastInDim S100000 ![] bcast_S_S100000 (constant S_ .f32 0x3F800000#32)))

/-- The per-edge coefficient: the source's value times the weight, times the destination's value. -/
def edgeNorm (src dst : (⟨S1600000, .i32⟩ : BufTy).Contents (Elt F)) (w : (⟨S1600000, .f32⟩ : BufTy).Contents (Elt F)) : (⟨S1600000, .f32⟩ : BufTy).Contents (Elt F) :=
  mulf (mulf (Host.gather gather_S100000_S1600000x1_S1600000_n_0_n_n_0_1_1 (invSqrtDeg dst w)
      (broadcastInDim S1600000x1 ![0] bcast_S1600000_S1600000x1_0 (wrapIdx src))) w)
    (Host.gather gather_S100000_S1600000x1_S1600000_n_0_n_n_0_1_1 (invSqrtDeg dst w)
      (broadcastInDim S1600000x1 ![0] bcast_S1600000_S1600000x1_0 (wrapIdx dst)))

/-- The per-node self coefficient: the value squared. -/
def selfScale (dst : (⟨S1600000, .i32⟩ : BufTy).Contents (Elt F)) (w : (⟨S1600000, .f32⟩ : BufTy).Contents (Elt F)) : (⟨S100000, .f32⟩ : BufTy).Contents (Elt F) :=
  mulf (invSqrtDeg dst w) (invSqrtDeg dst w)

/-- The projected rows (width 128) gathered by source, scaled per edge, summed into their destination nodes. -/
def aggregate128 (xw : (⟨S100000x128, .bf16⟩ : BufTy).Contents (Elt F)) (src dst : (⟨S1600000, .i32⟩ : BufTy).Contents (Elt F)) (nrm : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 nrm))
      (extf .f32 (Host.gather gather_S100000x128_S1600000x1_S1600000x128_1_0_n_n_0_1_1128 xw
        (broadcastInDim S1600000x1 ![0] bcast_S1600000_S1600000x1_0 (wrapIdx src))) bitsLt_bf16_f32))

/-- The same at width 64. -/
def aggregate64 (xw : (⟨S100000x64, .bf16⟩ : BufTy).Contents (Elt F)) (src dst : (⟨S1600000, .i32⟩ : BufTy).Contents (Elt F)) (nrm : (⟨S1600000, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (broadcastInDim S1600000x64 ![0, 1] bcast_S1600000x1_S1600000x64_0_1 (broadcastInDim S1600000x1 ![0] bcast_S1600000_S1600000x1_0 nrm))
      (extf .f32 (Host.gather gather_S100000x64_S1600000x1_S1600000x64_1_0_n_n_0_1_164 xw
        (broadcastInDim S1600000x1 ![0] bcast_S1600000_S1600000x1_0 (wrapIdx src))) bitsLt_bf16_f32))

variable (W : Valuation τ sig (Elt F))

/-! ## The operations before the first region -/

theorem pre_src : after hostOps0 W (Proc.devRef .tc main_v1) = srcOf (W (Proc.devRef .tc main_arg1)) := by
  after_results_simp <;> rfl
theorem pre_dst : after hostOps0 W (Proc.devRef .tc main_v3) = dstOf (W (Proc.devRef .tc main_arg1)) := by
  after_results_simp <;> rfl
theorem pre_norm : after hostOps0 W (Proc.devRef .tc main_v25)
    = edgeNorm (srcOf (W (Proc.devRef .tc main_arg1))) (dstOf (W (Proc.devRef .tc main_arg1))) (W (Proc.devRef .tc main_arg2)) := by
  after_results_simp <;> rfl
theorem pre_self : after hostOps0 W (Proc.devRef .tc main_v26)
    = selfScale (dstOf (W (Proc.devRef .tc main_arg1))) (W (Proc.devRef .tc main_arg2)) := by
  after_results_simp <;> rfl
theorem pre_arg0 : after hostOps0 W (Proc.devRef .tc main_arg0) = W (Proc.devRef .tc main_arg0) := by
  after_results_simp <;> rfl
theorem pre_arg3 : after hostOps0 W (Proc.devRef .tc main_arg3) = W (Proc.devRef .tc main_arg3) := by
  after_results_simp <;> rfl
theorem pre_arg4 : after hostOps0 W (Proc.devRef .tc main_arg4) = W (Proc.devRef .tc main_arg4) := by
  after_results_simp <;> rfl
theorem pre_arg5 : after hostOps0 W (Proc.devRef .tc main_arg5) = W (Proc.devRef .tc main_arg5) := by
  after_results_simp <;> rfl
theorem pre_arg6 : after hostOps0 W (Proc.devRef .tc main_arg6) = W (Proc.devRef .tc main_arg6) := by
  after_results_simp <;> rfl
theorem pre_arg7 : after hostOps0 W (Proc.devRef .tc main_arg7) = W (Proc.devRef .tc main_arg7) := by
  after_results_simp <;> rfl
theorem pre_arg8 : after hostOps0 W (Proc.devRef .tc main_arg8) = W (Proc.devRef .tc main_arg8) := by
  after_results_simp <;> rfl

/-! ## The operations between the first projection and the first combine -/

theorem mid1_agg : after hostOps1 W (Proc.devRef .tc main_v41)
    = aggregate128 (W (Proc.devRef .tc main_v27)) (W (Proc.devRef .tc main_v1)) (W (Proc.devRef .tc main_v3)) (W (Proc.devRef .tc main_v25)) := by
  after_results_simp <;> rfl
theorem mid1_bias : after hostOps1 W (Proc.devRef .tc main_v42) = shapeCast S1x128 (W (Proc.devRef .tc main_arg4)) shapeCasts_S128_S1x128 := by
  after_results_simp <;> rfl
theorem mid1_col : after hostOps1 W (Proc.devRef .tc main_v43) = shapeCast S100000x1 (W (Proc.devRef .tc main_v26)) shapeCasts_S100000_S100000x1 := by
  after_results_simp <;> rfl
theorem mid1_v27 : after hostOps1 W (Proc.devRef .tc main_v27) = W (Proc.devRef .tc main_v27) := by
  after_results_simp <;> rfl
theorem mid1_v1 : after hostOps1 W (Proc.devRef .tc main_v1) = W (Proc.devRef .tc main_v1) := by
  after_results_simp <;> rfl
theorem mid1_v3 : after hostOps1 W (Proc.devRef .tc main_v3) = W (Proc.devRef .tc main_v3) := by
  after_results_simp <;> rfl
theorem mid1_v25 : after hostOps1 W (Proc.devRef .tc main_v25) = W (Proc.devRef .tc main_v25) := by
  after_results_simp <;> rfl
theorem mid1_v26 : after hostOps1 W (Proc.devRef .tc main_v26) = W (Proc.devRef .tc main_v26) := by
  after_results_simp <;> rfl
theorem mid1_arg5 : after hostOps1 W (Proc.devRef .tc main_arg5) = W (Proc.devRef .tc main_arg5) := by
  after_results_simp <;> rfl
theorem mid1_arg6 : after hostOps1 W (Proc.devRef .tc main_arg6) = W (Proc.devRef .tc main_arg6) := by
  after_results_simp <;> rfl
theorem mid1_arg7 : after hostOps1 W (Proc.devRef .tc main_arg7) = W (Proc.devRef .tc main_arg7) := by
  after_results_simp <;> rfl
theorem mid1_arg8 : after hostOps1 W (Proc.devRef .tc main_arg8) = W (Proc.devRef .tc main_arg8) := by
  after_results_simp <;> rfl

/-! ## The operations between the second projection and the second combine -/

theorem mid2_agg : after hostOps3 W (Proc.devRef .tc main_v59)
    = aggregate128 (W (Proc.devRef .tc main_v45)) (W (Proc.devRef .tc main_v1)) (W (Proc.devRef .tc main_v3)) (W (Proc.devRef .tc main_v25)) := by
  after_results_simp <;> rfl
theorem mid2_bias : after hostOps3 W (Proc.devRef .tc main_v60) = shapeCast S1x128 (W (Proc.devRef .tc main_arg6)) shapeCasts_S128_S1x128 := by
  after_results_simp <;> rfl
theorem mid2_col : after hostOps3 W (Proc.devRef .tc main_v61) = shapeCast S100000x1 (W (Proc.devRef .tc main_v26)) shapeCasts_S100000_S100000x1 := by
  after_results_simp <;> rfl
theorem mid2_v45 : after hostOps3 W (Proc.devRef .tc main_v45) = W (Proc.devRef .tc main_v45) := by
  after_results_simp <;> rfl
theorem mid2_v1 : after hostOps3 W (Proc.devRef .tc main_v1) = W (Proc.devRef .tc main_v1) := by
  after_results_simp <;> rfl
theorem mid2_v3 : after hostOps3 W (Proc.devRef .tc main_v3) = W (Proc.devRef .tc main_v3) := by
  after_results_simp <;> rfl
theorem mid2_v25 : after hostOps3 W (Proc.devRef .tc main_v25) = W (Proc.devRef .tc main_v25) := by
  after_results_simp <;> rfl
theorem mid2_v26 : after hostOps3 W (Proc.devRef .tc main_v26) = W (Proc.devRef .tc main_v26) := by
  after_results_simp <;> rfl
theorem mid2_arg7 : after hostOps3 W (Proc.devRef .tc main_arg7) = W (Proc.devRef .tc main_arg7) := by
  after_results_simp <;> rfl
theorem mid2_arg8 : after hostOps3 W (Proc.devRef .tc main_arg8) = W (Proc.devRef .tc main_arg8) := by
  after_results_simp <;> rfl

/-! ## The operations between the third projection and the last combine -/

theorem mid3_agg : after hostOps5 W (Proc.devRef .tc main_v77)
    = aggregate64 (W (Proc.devRef .tc main_v63)) (W (Proc.devRef .tc main_v1)) (W (Proc.devRef .tc main_v3)) (W (Proc.devRef .tc main_v25)) := by
  after_results_simp <;> rfl
theorem mid3_bias : after hostOps5 W (Proc.devRef .tc main_v78) = shapeCast S1x64 (W (Proc.devRef .tc main_arg8)) shapeCasts_S64_S1x64 := by
  after_results_simp <;> rfl
theorem mid3_col : after hostOps5 W (Proc.devRef .tc main_v79) = shapeCast S100000x1 (W (Proc.devRef .tc main_v26)) shapeCasts_S100000_S100000x1 := by
  after_results_simp <;> rfl
theorem mid3_v63 : after hostOps5 W (Proc.devRef .tc main_v63) = W (Proc.devRef .tc main_v63) := by
  after_results_simp <;> rfl

end Cert.KernelIdeal.Host

end
-- ==== Proof.Net.lean ====
/-
  The whole network as one function of its nine argument arrays.

  A layer projects the node features by its weight matrix, gathers the projected rows along the edges, scales them by
  the per-edge coefficient and sums them into their destination nodes, then adds the projected features scaled by the
  per-node self coefficient and the bias row; the first two layers rectify the result, the last (of width 64) does not.
  The coefficients depend on the edge list and the edge weights only and are the same in the three layers.
-/
import proofs.«151050_j51049981280880_2_alg».proof.Proof.HostStretch
import proofs.«151050_j51049981280880_2_alg».proof.Proof.LibTileRows
import proofs.«151050_j51049981280880_2_alg».proof.Proof.LibNodeCombine

noncomputable section

namespace Cert.KernelIdeal.Net

open Cert.KernelIdeal Cert.KernelIdeal.Gen Idealize.ShloMosaic Cert.KernelIdeal.Host Cert.LibTileRows Cert.NodeCombine

/-- A rectified layer of width 128. -/
def layer128 (h : (⟨S100000x128, .f32⟩ : BufTy).Contents (Elt Ideal)) (x1 : (⟨S2x1600000, .i32⟩ : BufTy).Contents (Elt Ideal)) (x2 : (⟨S1600000, .f32⟩ : BufTy).Contents (Elt Ideal)) (w : (⟨S128x128, .f32⟩ : BufTy).Contents (Elt Ideal)) (b : (⟨S128, .f32⟩ : BufTy).Contents (Elt Ideal)) : (⟨S100000x128, .f32⟩ : BufTy).Contents (Elt Ideal) :=
  combineRelu (aggregate128 (rowsProd h w) (srcOf x1) (dstOf x1) (edgeNorm (srcOf x1) (dstOf x1) x2)) (rowsProd h w)
    (shapeCast S100000x1 (selfScale (dstOf x1) x2) shapeCasts_S100000_S100000x1) (shapeCast S1x128 b shapeCasts_S128_S1x128)

/-- The last layer, of width 64, not rectified. -/
def layer64 (h : (⟨S100000x128, .f32⟩ : BufTy).Contents (Elt Ideal)) (x1 : (⟨S2x1600000, .i32⟩ : BufTy).Contents (Elt Ideal)) (x2 : (⟨S1600000, .f32⟩ : BufTy).Contents (Elt Ideal)) (w : (⟨S128x64, .f32⟩ : BufTy).Contents (Elt Ideal)) (b : (⟨S64, .f32⟩ : BufTy).Contents (Elt Ideal)) : (⟨S100000x64, .f32⟩ : BufTy).Contents (Elt Ideal) :=
  combine (aggregate64 (rowsProd h w) (srcOf x1) (dstOf x1) (edgeNorm (srcOf x1) (dstOf x1) x2)) (rowsProd h w)
    (shapeCast S100000x1 (selfScale (dstOf x1) x2) shapeCasts_S100000_S100000x1) (shapeCast S1x64 b shapeCasts_S64_S1x64)

/-- The three layers, one after the other. -/
def net (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal)) : (⟨S100000x64, .f32⟩ : BufTy).Contents (Elt Ideal) :=
  layer64 (layer128 (layer128 x0 x1 x2 x3 x4) x1 x2 x5 x6) x1 x2 x7 x8

end Cert.KernelIdeal.Net

end
-- ==== Proof.Chain.lean ====
/-
  The buffer contents at the boundaries between the program's segments, as functions of the argument arrays.

  Walking the segments in order: after the first host stretch the edge list's two rows, the per-edge coefficient and the
  per-node self coefficient are in their buffers; each projection region leaves the whole product of its two inputs; each
  following host stretch leaves the aggregated messages, the bias as a row and the self coefficient as a column; each
  combine region leaves the layer's output. No segment writes an argument or one of the four coefficient buffers again,
  so they are found unchanged wherever a later segment reads them. At the last boundary the result buffer holds the
  whole network of the nine arguments.
-/
import proofs.«151050_j51049981280880_2_alg».proof.Proof.Gen.KernelIdeal.Frame
import proofs.«151050_j51049981280880_2_alg».proof.Proof.Region0
import proofs.«151050_j51049981280880_2_alg».proof.Proof.Region1
import proofs.«151050_j51049981280880_2_alg».proof.Proof.Region2
import proofs.«151050_j51049981280880_2_alg».proof.Proof.Region3
import proofs.«151050_j51049981280880_2_alg».proof.Proof.Region4
import proofs.«151050_j51049981280880_2_alg».proof.Proof.Region5
import proofs.«151050_j51049981280880_2_alg».proof.Proof.HostStretch
import proofs.«151050_j51049981280880_2_alg».proof.Proof.Net

set_option maxRecDepth 16384

noncomputable section

namespace Cert.KernelIdeal.Chain

open Cert.KernelIdeal Cert.KernelIdeal.Gen Idealize.ShloMosaic Idealize.ShloMosaic.TcCoe Idealize.SL.Sem
open Cert.KernelIdeal.Host Cert.KernelIdeal.Net Cert.LibTileRows Cert.NodeCombine

variable (m : (ℓ : Loc nD τ sig) → Buf (Elt Ideal) ℓ) (ρ : Dev nD → PrngReg) (c : Dev nD)

/-! ## After the first host stretch -/

theorem b1_src : W1 m ρ c (Proc.devRef .tc main_v1) = (srcOf (m ((c : Thread nD τ).loc main_arg1))) := Host.pre_src (W0 m ρ c)
theorem b1_dst : W1 m ρ c (Proc.devRef .tc main_v3) = (dstOf (m ((c : Thread nD τ).loc main_arg1))) := Host.pre_dst (W0 m ρ c)
theorem b1_norm : W1 m ρ c (Proc.devRef .tc main_v25) = (edgeNorm (srcOf (m ((c : Thread nD τ).loc main_arg1))) (dstOf (m ((c : Thread nD τ).loc main_arg1))) (m ((c : Thread nD τ).loc main_arg2))) := Host.pre_norm (W0 m ρ c)
theorem b1_self : W1 m ρ c (Proc.devRef .tc main_v26) = (selfScale (dstOf (m ((c : Thread nD τ).loc main_arg1))) (m ((c : Thread nD τ).loc main_arg2))) := Host.pre_self (W0 m ρ c)
theorem b1_arg0 : W1 m ρ c (Proc.devRef .tc main_arg0) = (m ((c : Thread nD τ).loc main_arg0)) := Host.pre_arg0 (W0 m ρ c)
theorem b1_arg3 : W1 m ρ c (Proc.devRef .tc main_arg3) = (m ((c : Thread nD τ).loc main_arg3)) := Host.pre_arg3 (W0 m ρ c)
theorem b1_arg4 : W1 m ρ c (Proc.devRef .tc main_arg4) = (m ((c : Thread nD τ).loc main_arg4)) := Host.pre_arg4 (W0 m ρ c)
theorem b1_arg5 : W1 m ρ c (Proc.devRef .tc main_arg5) = (m ((c : Thread nD τ).loc main_arg5)) := Host.pre_arg5 (W0 m ρ c)
theorem b1_arg6 : W1 m ρ c (Proc.devRef .tc main_arg6) = (m ((c : Thread nD τ).loc main_arg6)) := Host.pre_arg6 (W0 m ρ c)
theorem b1_arg7 : W1 m ρ c (Proc.devRef .tc main_arg7) = (m ((c : Thread nD τ).loc main_arg7)) := Host.pre_arg7 (W0 m ρ c)
theorem b1_arg8 : W1 m ρ c (Proc.devRef .tc main_arg8) = (m ((c : Thread nD τ).loc main_arg8)) := Host.pre_arg8 (W0 m ρ c)

/-! ## After the first projection -/

theorem b2_xw : W2 m ρ c (Proc.devRef .tc main_v27) = (rowsProd (m ((c : Thread nD τ).loc main_arg0)) (m ((c : Thread nD τ).loc main_arg3))) :=
  (W2_arr m ρ c 2).trans ((Region0.final (V1 m ρ) c).trans (by
    show rowsProd (W1 m ρ c (Proc.devRef .tc main_arg0)) (W1 m ρ c (Proc.devRef .tc main_arg3)) = _
    rw [b1_arg0, b1_arg3]))
theorem b2_src : W2 m ρ c (Proc.devRef .tc main_v1) = (srcOf (m ((c : Thread nD τ).loc main_arg1))) := (W2_of_ne m ρ c main_v1 (by decide)).trans (b1_src m ρ c)
theorem b2_dst : W2 m ρ c (Proc.devRef .tc main_v3) = (dstOf (m ((c : Thread nD τ).loc main_arg1))) := (W2_of_ne m ρ c main_v3 (by decide)).trans (b1_dst m ρ c)
theorem b2_norm : W2 m ρ c (Proc.devRef .tc main_v25) = (edgeNorm (srcOf (m ((c : Thread nD τ).loc main_arg1))) (dstOf (m ((c : Thread nD τ).loc main_arg1))) (m ((c : Thread nD τ).loc main_arg2))) := (W2_of_ne m ρ c main_v25 (by decide)).trans (b1_norm m ρ c)
theorem b2_self : W2 m ρ c (Proc.devRef .tc main_v26) = (selfScale (dstOf (m ((c : Thread nD τ).loc main_arg1))) (m ((c : Thread nD τ).loc main_arg2))) := (W2_of_ne m ρ c main_v26 (by decide)).trans (b1_self m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)
theorem b2_arg8 : W2 m ρ c (Proc.devRef .tc main_arg8) = (m ((c : Thread nD τ).loc main_arg8)) := (W2_of_ne m ρ c main_arg8 (by decide)).trans (b1_arg8 m ρ c)

/-! ## After the second host stretch -/

theorem b3_agg : W3 m ρ c (Proc.devRef .tc main_v41) = aggregate128 (rowsProd (m ((c : Thread nD τ).loc main_arg0)) (m ((c : Thread nD τ).loc main_arg3))) (srcOf (m ((c : Thread nD τ).loc main_arg1))) (dstOf (m ((c : Thread nD τ).loc main_arg1))) (edgeNorm (srcOf (m ((c : Thread nD τ).loc main_arg1))) (dstOf (m ((c : Thread nD τ).loc main_arg1))) (m ((c : Thread nD τ).loc main_arg2))) :=
  (Host.mid1_agg (W2 m ρ c)).trans (by rw [b2_xw, b2_src, b2_dst, b2_norm])
theorem b3_bias : W3 m ρ c (Proc.devRef .tc main_v42) = shapeCast S1x128 (m ((c : Thread nD τ).loc main_arg4)) shapeCasts_S128_S1x128 :=
  (Host.mid1_bias (W2 m ρ c)).trans (by rw [b2_arg4])
theorem b3_col : W3 m ρ c (Proc.devRef .tc main_v43) = (shapeCast S100000x1 (selfScale (dstOf (m ((c : Thread nD τ).loc main_arg1))) (m ((c : Thread nD τ).loc main_arg2))) shapeCasts_S100000_S100000x1) :=
  (Host.mid1_col (W2 m ρ c)).trans (by rw [b2_self])
theorem b3_xw : W3 m ρ c (Proc.devRef .tc main_v27) = (rowsProd (m ((c : Thread nD τ).loc main_arg0)) (m ((c : Thread nD τ).loc main_arg3))) := (Host.mid1_v27 (W2 m ρ c)).trans (b2_xw m ρ c)
theorem b3_src : W3 m ρ c (Proc.devRef .tc main_v1) = (srcOf (m ((c : Thread nD τ).loc main_arg1))) := (Host.mid1_v1 (W2 m ρ c)).trans (b2_src m ρ c)
theorem b3_dst : W3 m ρ c (Proc.devRef .tc main_v3) = (dstOf (m ((c : Thread nD τ).loc main_arg1))) := (Host.mid1_v3 (W2 m ρ c)).trans (b2_dst m ρ c)
theorem b3_norm : W3 m ρ c (Proc.devRef .tc main_v25) = (edgeNorm (srcOf (m ((c : Thread nD τ).loc main_arg1))) (dstOf (m ((c : Thread nD τ).loc main_arg1))) (m ((c : Thread nD τ).loc main_arg2))) := (Host.mid1_v25 (W2 m ρ c)).trans (b2_norm m ρ c)
theorem b3_self : W3 m ρ c (Proc.devRef .tc main_v26) = (selfScale (dstOf (m ((c : Thread nD τ).loc main_arg1))) (m ((c : Thread nD τ).loc main_arg2))) := (Host.mid1_v26 (W2 m ρ c)).trans (b2_self m ρ c)
theorem b3_arg5 : W3 m ρ c (Proc.devRef .tc main_arg5) = (m ((c : Thread nD τ).loc main_arg5)) := (Host.mid1_arg5 (W2 m ρ c)).trans (b2_arg5 m ρ c)
theorem b3_arg6 : W3 m ρ c (Proc.devRef .tc main_arg6) = (m ((c : Thread nD τ).loc main_arg6)) := (Host.mid1_arg6 (W2 m ρ c)).trans (b2_arg6 m ρ c)
theorem b3_arg7 : W3 m ρ c (Proc.devRef .tc main_arg7) = (m ((c : Thread nD τ).loc main_arg7)) := (Host.mid1_arg7 (W2 m ρ c)).trans (b2_arg7 m ρ c)
theorem b3_arg8 : W3 m ρ c (Proc.devRef .tc main_arg8) = (m ((c : Thread nD τ).loc main_arg8)) := (Host.mid1_arg8 (W2 m ρ c)).trans (b2_arg8 m ρ c)

/-! ## After the first combine -/

theorem b4_h : W4 m ρ c (Proc.devRef .tc main_v44) = (layer128 (m ((c : Thread nD τ).loc main_arg0)) (m ((c : Thread nD τ).loc main_arg1)) (m ((c : Thread nD τ).loc main_arg2)) (m ((c : Thread nD τ).loc main_arg3)) (m ((c : Thread nD τ).loc main_arg4))) :=
  (W4_arr m ρ c 4).trans ((Region1.final (V3 m ρ) c).trans (by
    show combineRelu (W3 m ρ c (Proc.devRef .tc main_v41)) (W3 m ρ c (Proc.devRef .tc main_v27)) (W3 m ρ c (Proc.devRef .tc main_v43)) (W3 m ρ c (Proc.devRef .tc main_v42)) = _
    rw [b3_agg, b3_xw, b3_col, b3_bias]
    rfl))
theorem b4_src : W4 m ρ c (Proc.devRef .tc main_v1) = (srcOf (m ((c : Thread nD τ).loc main_arg1))) := (W4_of_ne m ρ c main_v1 (by decide)).trans (b3_src m ρ c)
theorem b4_dst : W4 m ρ c (Proc.devRef .tc main_v3) = (dstOf (m ((c : Thread nD τ).loc main_arg1))) := (W4_of_ne m ρ c main_v3 (by decide)).trans (b3_dst m ρ c)
theorem b4_norm : W4 m ρ c (Proc.devRef .tc main_v25) = (edgeNorm (srcOf (m ((c : Thread nD τ).loc main_arg1))) (dstOf (m ((c : Thread nD τ).loc main_arg1))) (m ((c : Thread nD τ).loc main_arg2))) := (W4_of_ne m ρ c main_v25 (by decide)).trans (b3_norm m ρ c)
theorem b4_self : W4 m ρ c (Proc.devRef .tc main_v26) = (selfScale (dstOf (m ((c : Thread nD τ).loc main_arg1))) (m ((c : Thread nD τ).loc main_arg2))) := (W4_of_ne m ρ c main_v26 (by decide)).trans (b3_self m ρ c)
theorem b4_arg5 : W4 m ρ c (Proc.devRef .tc main_arg5) = (m ((c : Thread nD τ).loc main_arg5)) := (W4_of_ne m ρ c main_arg5 (by decide)).trans (b3_arg5 m ρ c)
theorem b4_arg6 : W4 m ρ c (Proc.devRef .tc main_arg6) = (m ((c : Thread nD τ).loc main_arg6)) := (W4_of_ne m ρ c main_arg6 (by decide)).trans (b3_arg6 m ρ c)
theorem b4_arg7 : W4 m ρ c (Proc.devRef .tc main_arg7) = (m ((c : Thread nD τ).loc main_arg7)) := (W4_of_ne m ρ c main_arg7 (by decide)).trans (b3_arg7 m ρ c)
theorem b4_arg8 : W4 m ρ c (Proc.devRef .tc main_arg8) = (m ((c : Thread nD τ).loc main_arg8)) := (W4_of_ne m ρ c main_arg8 (by decide)).trans (b3_arg8 m ρ c)

/-! ## After the second projection -/

theorem b5_xw : W5 m ρ c (Proc.devRef .tc main_v45) = (rowsProd (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) :=
  (W5_arr m ρ c 2).trans ((Region2.final (V4 m ρ) c).trans (by
    show rowsProd (W4 m ρ c (Proc.devRef .tc main_v44)) (W4 m ρ c (Proc.devRef .tc main_arg5)) = _
    rw [b4_h, b4_arg5]))
theorem b5_src : W5 m ρ c (Proc.devRef .tc main_v1) = (srcOf (m ((c : Thread nD τ).loc main_arg1))) := (W5_of_ne m ρ c main_v1 (by decide)).trans (b4_src m ρ c)
theorem b5_dst : W5 m ρ c (Proc.devRef .tc main_v3) = (dstOf (m ((c : Thread nD τ).loc main_arg1))) := (W5_of_ne m ρ c main_v3 (by decide)).trans (b4_dst m ρ c)
theorem b5_norm : W5 m ρ c (Proc.devRef .tc main_v25) = (edgeNorm (srcOf (m ((c : Thread nD τ).loc main_arg1))) (dstOf (m ((c : Thread nD τ).loc main_arg1))) (m ((c : Thread nD τ).loc main_arg2))) := (W5_of_ne m ρ c main_v25 (by decide)).trans (b4_norm m ρ c)
theorem b5_self : W5 m ρ c (Proc.devRef .tc main_v26) = (selfScale (dstOf (m ((c : Thread nD τ).loc main_arg1))) (m ((c : Thread nD τ).loc main_arg2))) := (W5_of_ne m ρ c main_v26 (by decide)).trans (b4_self m ρ c)
theorem b5_arg6 : W5 m ρ c (Proc.devRef .tc main_arg6) = (m ((c : Thread nD τ).loc main_arg6)) := (W5_of_ne m ρ c main_arg6 (by decide)).trans (b4_arg6 m ρ c)
theorem b5_arg7 : W5 m ρ c (Proc.devRef .tc main_arg7) = (m ((c : Thread nD τ).loc main_arg7)) := (W5_of_ne m ρ c main_arg7 (by decide)).trans (b4_arg7 m ρ c)
theorem b5_arg8 : W5 m ρ c (Proc.devRef .tc main_arg8) = (m ((c : Thread nD τ).loc main_arg8)) := (W5_of_ne m ρ c main_arg8 (by decide)).trans (b4_arg8 m ρ c)

/-! ## After the third host stretch -/

theorem b6_agg : W6 m ρ c (Proc.devRef .tc main_v59) = aggregate128 (rowsProd (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (srcOf (m ((c : Thread nD τ).loc main_arg1))) (dstOf (m ((c : Thread nD τ).loc main_arg1))) (edgeNorm (srcOf (m ((c : Thread nD τ).loc main_arg1))) (dstOf (m ((c : Thread nD τ).loc main_arg1))) (m ((c : Thread nD τ).loc main_arg2))) :=
  (Host.mid2_agg (W5 m ρ c)).trans (by rw [b5_xw, b5_src, b5_dst, b5_norm])
theorem b6_bias : W6 m ρ c (Proc.devRef .tc main_v60) = shapeCast S1x128 (m ((c : Thread nD τ).loc main_arg6)) shapeCasts_S128_S1x128 :=
  (Host.mid2_bias (W5 m ρ c)).trans (by rw [b5_arg6])
theorem b6_col : W6 m ρ c (Proc.devRef .tc main_v61) = (shapeCast S100000x1 (selfScale (dstOf (m ((c : Thread nD τ).loc main_arg1))) (m ((c : Thread nD τ).loc main_arg2))) shapeCasts_S100000_S100000x1) :=
  (Host.mid2_col (W5 m ρ c)).trans (by rw [b5_self])
theorem b6_xw : W6 m ρ c (Proc.devRef .tc main_v45) = (rowsProd (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) := (Host.mid2_v45 (W5 m ρ c)).trans (b5_xw m ρ c)
theorem b6_src : W6 m ρ c (Proc.devRef .tc main_v1) = (srcOf (m ((c : Thread nD τ).loc main_arg1))) := (Host.mid2_v1 (W5 m ρ c)).trans (b5_src m ρ c)
theorem b6_dst : W6 m ρ c (Proc.devRef .tc main_v3) = (dstOf (m ((c : Thread nD τ).loc main_arg1))) := (Host.mid2_v3 (W5 m ρ c)).trans (b5_dst m ρ c)
theorem b6_norm : W6 m ρ c (Proc.devRef .tc main_v25) = (edgeNorm (srcOf (m ((c : Thread nD τ).loc main_arg1))) (dstOf (m ((c : Thread nD τ).loc main_arg1))) (m ((c : Thread nD τ).loc main_arg2))) := (Host.mid2_v25 (W5 m ρ c)).trans (b5_norm m ρ c)
theorem b6_self : W6 m ρ c (Proc.devRef .tc main_v26) = (selfScale (dstOf (m ((c : Thread nD τ).loc main_arg1))) (m ((c : Thread nD τ).loc main_arg2))) := (Host.mid2_v26 (W5 m ρ c)).trans (b5_self m ρ c)
theorem b6_arg7 : W6 m ρ c (Proc.devRef .tc main_arg7) = (m ((c : Thread nD τ).loc main_arg7)) := (Host.mid2_arg7 (W5 m ρ c)).trans (b5_arg7 m ρ c)
theorem b6_arg8 : W6 m ρ c (Proc.devRef .tc main_arg8) = (m ((c : Thread nD τ).loc main_arg8)) := (Host.mid2_arg8 (W5 m ρ c)).trans (b5_arg8 m ρ c)

/-! ## After the second combine -/

theorem b7_h : W7 m ρ c (Proc.devRef .tc main_v62) = (layer128 (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) :=
  (W7_arr m ρ c 4).trans ((Region3.final (V6 m ρ) c).trans (by
    show combineRelu (W6 m ρ c (Proc.devRef .tc main_v59)) (W6 m ρ c (Proc.devRef .tc main_v45)) (W6 m ρ c (Proc.devRef .tc main_v61)) (W6 m ρ c (Proc.devRef .tc main_v60)) = _
    rw [b6_agg, b6_xw, b6_col, b6_bias]
    rfl))
theorem b7_src : W7 m ρ c (Proc.devRef .tc main_v1) = (srcOf (m ((c : Thread nD τ).loc main_arg1))) := (W7_of_ne m ρ c main_v1 (by decide)).trans (b6_src m ρ c)
theorem b7_dst : W7 m ρ c (Proc.devRef .tc main_v3) = (dstOf (m ((c : Thread nD τ).loc main_arg1))) := (W7_of_ne m ρ c main_v3 (by decide)).trans (b6_dst m ρ c)
theorem b7_norm : W7 m ρ c (Proc.devRef .tc main_v25) = (edgeNorm (srcOf (m ((c : Thread nD τ).loc main_arg1))) (dstOf (m ((c : Thread nD τ).loc main_arg1))) (m ((c : Thread nD τ).loc main_arg2))) := (W7_of_ne m ρ c main_v25 (by decide)).trans (b6_norm m ρ c)
theorem b7_self : W7 m ρ c (Proc.devRef .tc main_v26) = (selfScale (dstOf (m ((c : Thread nD τ).loc main_arg1))) (m ((c : Thread nD τ).loc main_arg2))) := (W7_of_ne m ρ c main_v26 (by decide)).trans (b6_self m ρ c)
theorem b7_arg7 : W7 m ρ c (Proc.devRef .tc main_arg7) = (m ((c : Thread nD τ).loc main_arg7)) := (W7_of_ne m ρ c main_arg7 (by decide)).trans (b6_arg7 m ρ c)
theorem b7_arg8 : W7 m ρ c (Proc.devRef .tc main_arg8) = (m ((c : Thread nD τ).loc main_arg8)) := (W7_of_ne m ρ c main_arg8 (by decide)).trans (b6_arg8 m ρ c)

/-! ## After the third projection -/

theorem b8_xw : W8 m ρ c (Proc.devRef .tc main_v63) = (rowsProd (layer128 (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7))) :=
  (W8_arr m ρ c 2).trans ((Region4.final (V7 m ρ) c).trans (by
    show rowsProd (W7 m ρ c (Proc.devRef .tc main_v62)) (W7 m ρ c (Proc.devRef .tc main_arg7)) = _
    rw [b7_h, b7_arg7]))
theorem b8_src : W8 m ρ c (Proc.devRef .tc main_v1) = (srcOf (m ((c : Thread nD τ).loc main_arg1))) := (W8_of_ne m ρ c main_v1 (by decide)).trans (b7_src m ρ c)
theorem b8_dst : W8 m ρ c (Proc.devRef .tc main_v3) = (dstOf (m ((c : Thread nD τ).loc main_arg1))) := (W8_of_ne m ρ c main_v3 (by decide)).trans (b7_dst m ρ c)
theorem b8_norm : W8 m ρ c (Proc.devRef .tc main_v25) = (edgeNorm (srcOf (m ((c : Thread nD τ).loc main_arg1))) (dstOf (m ((c : Thread nD τ).loc main_arg1))) (m ((c : Thread nD τ).loc main_arg2))) := (W8_of_ne m ρ c main_v25 (by decide)).trans (b7_norm m ρ c)
theorem b8_self : W8 m ρ c (Proc.devRef .tc main_v26) = (selfScale (dstOf (m ((c : Thread nD τ).loc main_arg1))) (m ((c : Thread nD τ).loc main_arg2))) := (W8_of_ne m ρ c main_v26 (by decide)).trans (b7_self m ρ c)
theorem b8_arg8 : W8 m ρ c (Proc.devRef .tc main_arg8) = (m ((c : Thread nD τ).loc main_arg8)) := (W8_of_ne m ρ c main_arg8 (by decide)).trans (b7_arg8 m ρ c)

/-! ## After the last host stretch -/

theorem b9_agg : W9 m ρ c (Proc.devRef .tc main_v77) = aggregate64 (rowsProd (layer128 (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7))) (srcOf (m ((c : Thread nD τ).loc main_arg1))) (dstOf (m ((c : Thread nD τ).loc main_arg1))) (edgeNorm (srcOf (m ((c : Thread nD τ).loc main_arg1))) (dstOf (m ((c : Thread nD τ).loc main_arg1))) (m ((c : Thread nD τ).loc main_arg2))) :=
  (Host.mid3_agg (W8 m ρ c)).trans (by rw [b8_xw, b8_src, b8_dst, b8_norm])
theorem b9_bias : W9 m ρ c (Proc.devRef .tc main_v78) = shapeCast S1x64 (m ((c : Thread nD τ).loc main_arg8)) shapeCasts_S64_S1x64 :=
  (Host.mid3_bias (W8 m ρ c)).trans (by rw [b8_arg8])
theorem b9_col : W9 m ρ c (Proc.devRef .tc main_v79) = (shapeCast S100000x1 (selfScale (dstOf (m ((c : Thread nD τ).loc main_arg1))) (m ((c : Thread nD τ).loc main_arg2))) shapeCasts_S100000_S100000x1) :=
  (Host.mid3_col (W8 m ρ c)).trans (by rw [b8_self])
theorem b9_xw : W9 m ρ c (Proc.devRef .tc main_v63) = (rowsProd (layer128 (layer128 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7))) := (Host.mid3_v63 (W8 m ρ c)).trans (b8_xw m ρ c)

/-! ## After the last combine -/

/-- The result buffer at the last boundary is the whole network of the nine argument arrays. -/
theorem result : W10 m ρ c (Proc.devRef .tc main_v80) = (net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W10_arr m ρ c 4).trans ((Region5.final (V9 m ρ) c).trans (by
    show combine (W9 m ρ c (Proc.devRef .tc main_v77)) (W9 m ρ c (Proc.devRef .tc main_v63)) (W9 m ρ c (Proc.devRef .tc main_v79)) (W9 m ρ c (Proc.devRef .tc main_v78)) = _
    rw [b9_agg, b9_xw, b9_col, b9_bias]
    rfl))

end Cert.KernelIdeal.Chain

end
-- ==== Proof.RefLayers.lean ====
/-
  The reference's result is the same network of the nine argument arrays.

  The reference computes each layer with whole-array host operations: the projection as one matrix product, the
  coefficients recomputed in every layer from the edge list and the edge weights (the same values each time), the
  aggregation by a gather and a summing scatter, the self term and the bias by broadcasts. Layer by layer this is the
  network's layer: the matrix product is the entry-by-entry product, the broadcasts and sums are the node-wise combine,
  and widening a gathered bf16 row is the identity on the extended reals.
-/
import proofs.«151050_j51049981280880_2_alg».proof.Proof.Gen.ReferenceIdeal.Run
import proofs.«151050_j51049981280880_2_alg».proof.Proof.Gen.ReferenceIdeal.Read

set_option maxRecDepth 16384

noncomputable section

namespace Cert.ReferenceIdeal.Layers

open Cert.ReferenceIdeal Cert.ReferenceIdeal.Gen Idealize.ShloMosaic Idealize.ShloMosaic.TcCoe Idealize.SL.Sem

section Spelling

variable {F : FTy → Type} [FloatOps F]

/-- Row 0 of the edge list. -/
def rsrc (x1 : (⟨S2x1600000, .i32⟩ : BufTy).Contents (Elt F)) : (⟨S1600000, .i32⟩ : BufTy).Contents (Elt F) :=
  shapeCast S1600000 (extractStridedSlice S1x1600000 ![0, 0] x1 slices_S2x1600000_S1x1600000_0_0) shapeCasts_S1x1600000_S1600000
/-- Row 1 of the edge list. -/
def rdst (x1 : (⟨S2x1600000, .i32⟩ : BufTy).Contents (Elt F)) : (⟨S1600000, .i32⟩ : BufTy).Contents (Elt F) :=
  shapeCast S1600000 (extractStridedSlice S1x1600000 ![1, 0] x1 slices_S2x1600000_S1x1600000_1_0) shapeCasts_S1x1600000_S1600000
/-- A node index with the negative values moved up by the number of nodes. -/
def rwrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v
/-- The reciprocal square root of one plus the weights summed into their destination nodes. -/
def rdis (x1 : (⟨S2x1600000, .i32⟩ : BufTy).Contents (Elt F)) (x2 : (⟨S1600000, .f32⟩ : BufTy).Contents (Elt F)) : (⟨S100000, .f32⟩ : BufTy).Contents (Elt F) :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (rdst x1)) x2)
    (broadcastInDim S100000 ![] bcast_S_S100000 (constant S_ .f32 0x3F800000#32)))
/-- The per-edge coefficient. -/
def rnorm (x1 : (⟨S2x1600000, .i32⟩ : BufTy).Contents (Elt F)) (x2 : (⟨S1600000, .f32⟩ : BufTy).Contents (Elt F)) : (⟨S1600000, .f32⟩ : BufTy).Contents (Elt F) :=
  mulf (mulf (Host.gather gather_S100000_S1600000x1_S1600000_n_0_n_n_0_1_1 (rdis x1 x2)
      (broadcastInDim S1600000x1 ![0] bcast_S1600000_S1600000x1_0 (rwrap (rsrc x1)))) x2)
    (Host.gather gather_S100000_S1600000x1_S1600000_n_0_n_n_0_1_1 (rdis x1 x2)
      (broadcastInDim S1600000x1 ![0] bcast_S1600000_S1600000x1_0 (rwrap (rdst x1))))

/-- A layer of width 128 before its rectifier, in the reference's operations. -/
def rpre128 (h : (⟨S100000x128, .f32⟩ : BufTy).Contents (Elt F)) (x1 : (⟨S2x1600000, .i32⟩ : BufTy).Contents (Elt F)) (x2 : (⟨S1600000, .f32⟩ : BufTy).Contents (Elt F))
    (w : (⟨S128x128, .f32⟩ : BufTy).Contents (Elt F)) (b : (⟨S128, .f32⟩ : BufTy).Contents (Elt F)) : (⟨S100000x128, .f32⟩ : BufTy).Contents (Elt F) :=
  (addf (addf (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (rdst x1))
        (mulf (broadcastInDim S1600000x128 ![0, 1] bcast_S1600000x1_S1600000x128_0_1 (broadcastInDim S1600000x1 ![0] bcast_S1600000_S1600000x1_0 (rnorm x1 x2)))
          (Host.gather gather_S100000x128_S1600000x1_S1600000x128_1_0_n_n_0_1_1128 (Host.dotGeneral dot_S100000x128_S128x128_S100000x128_1_0_0_1_n_n none h w)
            (broadcastInDim S1600000x1 ![0] bcast_S1600000_S1600000x1_0 (rwrap (rsrc x1))))))
      (mulf (broadcastInDim S100000x128 ![0, 1] bcast_S100000x1_S100000x128_0_1 (broadcastInDim S100000x1 ![0] bcast_S100000_S100000x1_0 (mulf (rdis x1 x2) (rdis x1 x2))))
        (Host.dotGeneral dot_S100000x128_S128x128_S100000x128_1_0_0_1_n_n none h w)))
    (broadcastInDim S100000x128 ![0, 1] bcast_S1x128_S100000x128_0_1 (broadcastInDim S1x128 ![1] bcast_S128_S1x128_1 b)))

/-- A rectified layer of width 128, in the reference's operations. -/
def rlayer128 (h : (⟨S100000x128, .f32⟩ : BufTy).Contents (Elt F)) (x1 : (⟨S2x1600000, .i32⟩ : BufTy).Contents (Elt F)) (x2 : (⟨S1600000, .f32⟩ : BufTy).Contents (Elt F))
    (w : (⟨S128x128, .f32⟩ : BufTy).Contents (Elt F)) (b : (⟨S128, .f32⟩ : BufTy).Contents (Elt F)) : (⟨S100000x128, .f32⟩ : BufTy).Contents (Elt F) :=
  maximumf (rpre128 h x1 x2 w b) (broadcastInDim S100000x128 ![] bcast_S_S100000x128 (constant S_ .f32 0x00000000#32))

/-- The last layer, of width 64, in the reference's operations. -/
def rlayer64 (h : (⟨S100000x128, .f32⟩ : BufTy).Contents (Elt F)) (x1 : (⟨S2x1600000, .i32⟩ : BufTy).Contents (Elt F)) (x2 : (⟨S1600000, .f32⟩ : BufTy).Contents (Elt F))
    (w : (⟨S128x64, .f32⟩ : BufTy).Contents (Elt F)) (b : (⟨S64, .f32⟩ : BufTy).Contents (Elt F)) : (⟨S100000x64, .f32⟩ : BufTy).Contents (Elt F) :=
  (addf (addf (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (rdst x1))
        (mulf (broadcastInDim S1600000x64 ![0, 1] bcast_S1600000x1_S1600000x64_0_1 (broadcastInDim S1600000x1 ![0] bcast_S1600000_S1600000x1_0 (rnorm x1 x2)))
          (Host.gather gather_S100000x64_S1600000x1_S1600000x64_1_0_n_n_0_1_164 (Host.dotGeneral dot_S100000x128_S128x64_S100000x64_1_0_0_1_n_n none h w)
            (broadcastInDim S1600000x1 ![0] bcast_S1600000_S1600000x1_0 (rwrap (rsrc x1))))))
      (mulf (broadcastInDim S100000x64 ![0, 1] bcast_S100000x1_S100000x64_0_1 (broadcastInDim S100000x1 ![0] bcast_S100000_S100000x1_0 (mulf (rdis x1 x2) (rdis x1 x2))))
        (Host.dotGeneral dot_S100000x128_S128x64_S100000x64_1_0_0_1_n_n none h w)))
    (broadcastInDim S100000x64 ![0, 1] bcast_S1x64_S100000x64_0_1 (broadcastInDim S1x64 ![1] bcast_S64_S1x64_1 b)))

end Spelling

/-- The reference's composed result term is its three layers, one after the other. -/
theorem res_eq_layers {F : FTy → Type} [FloatOps F] (m : (ℓ : Loc nD τ sig) → Buf (Elt F) ℓ) (c : Dev nD) :
    Cert.ReferenceIdeal.Value.res_main_v137 m c
      = rlayer64 (rlayer128 (rlayer128 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8)) := by
  unfold Cert.ReferenceIdeal.Value.res_main_v137
  rfl

end Cert.ReferenceIdeal.Layers

end
-- ==== Proof.RefBridge.lean ====
/-
  Layer by layer, the reference's operations compute the network's layer.

  On the extended reals the host's matrix product is the entry-by-entry product; the self coefficient broadcast to a
  column and then to the full shape, times the projected features, plus the aggregated messages, plus the bias
  broadcast to a row and then to the full shape, is the node-wise combine; the maximum with the zero constant is its
  rectifier; and a row gathered from the projected features is the same row whether or not it is widened from bf16.
  The edge list's rows, the wrapped indices, the degrees and the coefficients are the same operations on both sides.
-/
import proofs.«151050_j51049981280880_2_alg».proof.Proof.RefLayers
import proofs.«151050_j51049981280880_2_alg».proof.Proof.Gen.ReferenceIdeal.Read
import proofs.«151050_j51049981280880_2_alg».proof.Proof.Net

set_option maxRecDepth 16384

noncomputable section

namespace Cert.ReferenceIdeal.Bridge

open Cert.ReferenceIdeal Cert.ReferenceIdeal.Gen Cert.ReferenceIdeal.Read Cert.ReferenceIdeal.Layers
open Idealize.ShloMosaic Idealize.ShloMosaic.TcCoe Idealize.SL.Sem
open Cert.KernelIdeal.Net Cert.KernelIdeal.Host Cert.LibTileRows Cert.NodeCombine

/-- A rectified layer of width 128: the reference's operations are the network's layer. -/
theorem layer128_eq (h : (⟨S100000x128, .f32⟩ : BufTy).Contents (Elt Ideal)) (x1 : (⟨S2x1600000, .i32⟩ : BufTy).Contents (Elt Ideal)) (x2 : (⟨S1600000, .f32⟩ : BufTy).Contents (Elt Ideal))
    (w : (⟨S128x128, .f32⟩ : BufTy).Contents (Elt Ideal)) (b : (⟨S128, .f32⟩ : BufTy).Contents (Elt Ideal)) :
    rlayer128 (F := Ideal) h x1 x2 w b = layer128 h x1 x2 w b := by
  symm
  unfold layer128
  rw [combineRelu_eq_host _ _ _ _ _ _ bcast_S100000_S100000x1_0 bcast_S100000x1_S100000x128_0_1 bcast_S128_S1x128_1
      bcast_S1x128_S100000x128_0_1 bcast_S_S100000x128,
    rowsProd_eq_dot dot_S100000x128_S128x128_S100000x128_1_0_0_1_n_n rfl rfl lhs_main_v4_0 lhs_main_v4_1 rhs_main_v4_0 rhs_main_v4_1 h w]
  rfl

/-- The last layer, of width 64: the reference's operations are the network's layer. -/
theorem layer64_eq (h : (⟨S100000x128, .f32⟩ : BufTy).Contents (Elt Ideal)) (x1 : (⟨S2x1600000, .i32⟩ : BufTy).Contents (Elt Ideal)) (x2 : (⟨S1600000, .f32⟩ : BufTy).Contents (Elt Ideal))
    (w : (⟨S128x64, .f32⟩ : BufTy).Contents (Elt Ideal)) (b : (⟨S64, .f32⟩ : BufTy).Contents (Elt Ideal)) :
    rlayer64 (F := Ideal) h x1 x2 w b = layer64 h x1 x2 w b := by
  symm
  unfold layer64
  rw [combine_eq_host _ _ _ _ _ _ bcast_S100000_S100000x1_0 bcast_S100000x1_S100000x64_0_1 bcast_S64_S1x64_1
      bcast_S1x64_S100000x64_0_1,
    rowsProd_eq_dot dot_S100000x128_S128x64_S100000x64_1_0_0_1_n_n rfl rfl lhs_main_v94_0 lhs_main_v94_1 rhs_main_v94_0 rhs_main_v94_1 h w]
  rfl

/-- The reference's composed result term is the network of the nine argument arrays. -/
theorem result (m : (ℓ : Loc nD τ sig) → Buf (Elt Ideal) ℓ) (c : Dev nD) :
    Cert.ReferenceIdeal.Value.res_main_v137 m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [res_eq_layers, layer128_eq, layer128_eq, layer64_eq]
  rfl

end Cert.ReferenceIdeal.Bridge

end
-- ==== Proof.lean ====
/-
  A three-layer graph convolution, tiled, against its whole-array reference.

  The kernel program computes the layer-invariant coefficients once (the reciprocal square root of one plus the edge
  weights summed into their destination nodes; per edge the source's value times the weight times the destination's
  value; per node the value squared), and then, for each of three layers, projects the node features by the layer's
  weight matrix in ten tiles of 10000 rows (rounded to bf16), gathers the projected rows along the edges, scales them
  and sums them into their destination nodes on the host, and combines in twenty-five tiles of 4000 rows: aggregate plus
  self coefficient times projected features plus bias, rectified in the first two layers. The reference recomputes the
  coefficients in every layer and applies whole-array operations throughout.

  On the extended reals rounding to bf16 and widening back are the identity, a tile of rows of a matrix product is that
  tile of the whole product, and a tile of rows of the node-wise combine is that tile of the whole combine; the tiles
  cover their arrays. So the kernel program's result buffer ends at the network function of the nine argument arrays
  (Chain.lean over the six region modules and the host stretches), and the reference's result is the same function
  (RefLayers.lean, RefBridge.lean). Nothing here needs the inputs to be finite: both sides apply the same operations in
  the same order and grouping, and the one sum that is regrouped, a row of a matrix product, is a finite sum of the same
  terms over the same index set on both sides. The ideal pass rewrote no operation, so the preservation claim is empty.
-/
import proofs.«151050_j51049981280880_2_alg».proof.Defs
import proofs.«151050_j51049981280880_2_alg».proof.Proof.Gen.Kernel
import proofs.«151050_j51049981280880_2_alg».proof.Proof.Gen.Kernel.Skeleton
import proofs.«151050_j51049981280880_2_alg».proof.Proof.Gen.Kernel.Launch
import proofs.«151050_j51049981280880_2_alg».proof.Proof.Gen.Kernel.Points
import proofs.«151050_j51049981280880_2_alg».proof.Proof.Gen.Kernel.Frame
import proofs.«151050_j51049981280880_2_alg».proof.Proof.Gen.KernelIdeal
import proofs.«151050_j51049981280880_2_alg».proof.Proof.Gen.KernelIdeal.Skeleton
import proofs.«151050_j51049981280880_2_alg».proof.Proof.Gen.KernelIdeal.Launch
import proofs.«151050_j51049981280880_2_alg».proof.Proof.Gen.KernelIdeal.Points
import proofs.«151050_j51049981280880_2_alg».proof.Proof.Gen.KernelIdeal.Frame
import proofs.«151050_j51049981280880_2_alg».proof.Proof.Gen.ReferenceIdeal
import proofs.«151050_j51049981280880_2_alg».proof.Proof.Gen.ReferenceIdeal.Run
import proofs.«151050_j51049981280880_2_alg».proof.Proof.Gen.ReferenceIdeal.Read
import proofs.«151050_j51049981280880_2_alg».proof.Proof.Gen.Pre_finite_inputs
import proofs.«151050_j51049981280880_2_alg».proof.Proof.KernelRun
import proofs.«151050_j51049981280880_2_alg».proof.Proof.Chain
import proofs.«151050_j51049981280880_2_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the network function of the argument arrays, which agree. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Bridge.result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
